-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x512 .f32) (main_arg9 : FVec F S512 .f32) (main_arg10 : FVec F S512x128 .f32) (main_arg11 : FVec F S128 .f32) (main_arg12 : FVec F S128x1 .f32) (main_arg13 : FVec F S1 .f32) (main_v33 : IVec S_ 1) : IVec S_ 1 :=
  let main_v34 : FVec F S128x512 .f32 := Host.absf main_arg8
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128x512 .f32) (main_arg9 : FVec F S512 .f32) (main_arg10 : FVec F S512x128 .f32) (main_arg11 : FVec F S128 .f32) (main_arg12 : FVec F S128x1 .f32) (main_arg13 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x800000 32) (main_arg2 : FVec F S256x128 .f32) (main_arg3 : FVec F S128 .f32) (main_arg4 : FVec F S256x128 .f32) (main_arg5 : FVec F S128x128 .f32) (main_arg6 : FVec F S128 .f32) (main_arg7 : FVec F S128x128 .f32) (main_arg8 : FVec F S128x512 .f32) (main_arg9 : FVec F S512 .f32) (main_arg10 : FVec F S512x128 .f32) (main_arg11 : FVec F S128 .f32) (main_arg12 : FVec F S128x1 .f32) (main_arg13 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S1x512 : Shape := ⟨2, ![1, 512]⟩
abbrev S1x1 : Shape := ⟨2, ![1, 1]⟩
abbrev S2000x1 : Shape := ⟨2, ![2000, 1]⟩
abbrev S2000x512 : Shape := ⟨2, ![2000, 512]⟩

abbrev nBuf : Space → Nat
  | .hbm => 77
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x512, .f32⟩
  | .hbm, ⟨9, _⟩ => ⟨S512, .f32⟩
  | .hbm, ⟨10, _⟩ => ⟨S512x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S50000x256, .f32⟩
  | .hbm, ⟨29, _⟩ => ⟨S800000x1, .i32⟩
  | .hbm, ⟨30, _⟩ => ⟨S50000x256, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x256, .f32⟩
  | .hbm, ⟨42, _⟩ => ⟨S50000x256, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S1x512, .f32⟩
  | .hbm, ⟨73, _⟩ => ⟨S1x128, .f32⟩
  | .hbm, ⟨74, _⟩ => ⟨S1x1, .f32⟩
  | .hbm, ⟨75, _⟩ => ⟨S50000x1, .f32⟩
  | .hbm, ⟨76, _⟩ => ⟨S50000, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x128, .f32⟩
  | .local _ .vmem, ⟨5, _⟩ => ⟨S1x128, .f32⟩
  | .local _ .vmem, ⟨6, _⟩ => ⟨S256x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x512, .f32⟩
  | .local _ .vmem, ⟨21, _⟩ => ⟨S1x512, .f32⟩
  | .local _ .vmem, ⟨22, _⟩ => ⟨S512x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S2000x1, .f32⟩
  | .local _ .vmem, ⟨27, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S512_S1x512 : S512.ShapeCasts S1x512
  shapeCasts_S1_S1x1 : S1.ShapeCasts S1x1
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S50000x1.size a
  hwx2_7 : ∀ i : grid2.Coords, EltTy.bits .f32 = 32 ∨ (Rect.block (s := S50000x1) S2000x1.size (cc2_transform_7 i) (hinb2_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49) S2000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x512 : Shape := ⟨2, ![50000, 512]⟩
abbrev S1x512 : Shape := ⟨2, ![1, 512]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S256x128, .f32⟩
  | 5 => ⟨S128x128, .f32⟩
  | 6 => ⟨S128, .f32⟩
  | 7 => ⟨S128x128, .f32⟩
  | 8 => ⟨S128x512, .f32⟩
  | 9 => ⟨S512, .f32⟩
  | 10 => ⟨S512x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x256, .f32⟩
  | 27 => ⟨S_, .f32⟩
  | 28 => ⟨S50000x256, .f32⟩
  | 29 => ⟨S800000x1, .i32⟩
  | 30 => ⟨S50000x256, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x256, .f32⟩
  | 42 => ⟨S50000x256, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x512, .f32⟩
  | 87 => ⟨S1x512, .f32⟩
  | 88 => ⟨S50000x512, .f32⟩
  | 89 => ⟨S50000x512, .f32⟩
  | 90 => ⟨S50000x512, .f32⟩
  | 91 => ⟨S50000x512, .f32⟩
  | 92 => ⟨S_, .f32⟩
  | 93 => ⟨S50000x512, .f32⟩
  | 94 => ⟨S50000x512, .f32⟩
  | 95 => ⟨S50000x512, .f32⟩
  | 96 => ⟨S_, .f32⟩
  | 97 => ⟨S50000x512, .f32⟩
  | 98 => ⟨S50000x512, .f32⟩
  | 99 => ⟨S50000x512, .f32⟩
  | 100 => ⟨S_, .f32⟩
  | 101 => ⟨S50000x512, .f32⟩
  | 102 => ⟨S50000x512, .f32⟩
  | 103 => ⟨S_, .f32⟩
  | 104 => ⟨S50000x512, .f32⟩
  | 105 => ⟨S50000x512, .f32⟩
  | 106 => ⟨S50000x512, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x256, .f32⟩

abbrev hbmTy0_1 (i : Nat) : BufTy := match i % 128 with
  | 0 => ⟨S50000x1, .f32⟩
  | 1 => ⟨S1x1, .f32⟩
  | 2 => ⟨S50000x1, .f32⟩
  | 3 => ⟨S50000x1, .f32⟩
  | 4 => ⟨S50000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []
  dot_S50000x128_S128x1_S50000x1_1_0_0_1_n_n_wf : DotDims.WF S50000x128 S128x1 S50000x1 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run with every buffer named.

  The program is seven segments: host operations, the first SAGE stage's launch, host operations, the second stage's
  launch, three reshapes of bias vectors, the head's launch, and one last reshape.  The contents of the TensorCore's
  buffers at the seven boundaries are the fold `W0 … W7` of the generated frame module: a host stretch applies its
  operations to the previous contents, a launch replaces its windows' arrays by what its write-backs leave.  Run
  through the library's theorem for a chain of segments, with the generated module's own segments, every weakly fair
  execution terminates in a state whose unscoped buffers are at the last boundary's contents `W7`.  The frame claim
  reads the argument buffers of that post; the value claim reads the result buffer.
-/
import proofs.«104102_j11493332484324_1_alg».proof.Proof.PatchedKernelIdealFrame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result buffer is an unscoped buffer: it ends at the last boundary's contents. -/
theorem run_result : θ_run defs (onTc (τ := τ) (main (F := F))) ⟨m, fun _ => 0, ρ⟩ (fun r => ∀ c : Dev nD,
      r.2.mem ((c.tc : Thread nD τ).loc main_v50) = W7 m ρ c (Proc.devRef .tc main_v50)) :=
  (θ_run defs _ _).mono (fun r h c => h c _ (mem_uc main_v50 (by decide))) (run_all m ρ)

end Cert.KernelIdeal.RunValue

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«104102_j11493332484324_1_alg».proof.Proof.LibMatmul2
import proofs.«104102_j11493332484324_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«104102_j11493332484324_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibDenseLayers.lean ====
/-
  One layer of a graph-SAGE network with mean aggregation, entry by entry, on the extended reals.

  A layer takes the aggregated neighbour features a (N rows of K entries), the node features x (same shape), two
  weight matrices wl, wr (K rows of B entries) and a bias vector b (B entries); its value at (p, q) before the
  activation is

      pre a x wl wr b p q = ∑ₖ a(p,k)·wl(k,q) + ∑ₖ x(p,k)·wr(k,q) + b(q).

  A hidden layer takes the maximum of that with zero; the last layer is a log-softmax along each row: with
  M(p) the running maximum of row p of `pre` from −∞,  out(p,q) = (pre(p,q) − M(p)) − log ∑ₖ exp(pre(p,k) − M(p)).
  Both are stated as ONE function of the result index.  Then the two ways the programs spell these: a tile of rows
  computed by two matrix products into zero accumulators, their sum, a bias row repeated along the rows, and the
  activation (the tile form reads the bias as a one-row matrix); and the same on whole arrays with the host's
  products, sums and repetitions.  Only sums, products, maxima and differences occur, each applied in the same
  order on both sides, so no law of the extended reals beyond "the maximum of a bound with something at least that
  bound" is needed, and nothing has to be finite.
-/
import Idealize.ShloMosaic.PureOps.Ideal.Laws
import Idealize.ShloMosaic.Lib.ValueIdx
import Idealize.ShloMosaic.Lib.ValueLayout
import proofs.«104102_j11493332484324_1_alg».proof.Proof.LibEntryReads
import proofs.«104102_j11493332484324_1_alg».proof.Proof.LibHostReads

noncomputable section

open scoped BigOperators

namespace Cert.Sage

open Idealize.ShloMosaic Idealize.ShloMosaic.ValueIdx

variable {N K B : ℕ}

/-- The layer before its activation, at row p and column q. -/
def pre (a x : FVec Ideal ⟨2, ![N, K]⟩ .f32) (wl wr : FVec Ideal ⟨2, ![K, B]⟩ .f32) (b : FVec Ideal ⟨1, ![B]⟩ .f32)
    (p : Fin N) (q : Fin B) : EReal :=
  (∑ k : Fin K, a (ix2 p k) * wl (ix2 k q)) + (∑ k : Fin K, x (ix2 p k) * wr (ix2 k q)) + b (ix1 q)

/-- A hidden layer: the maximum of the pre-activation with zero, as one function of the result index. -/
def hidden (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  max (pre a x wl wr b ⟨(i 0).val, idx2_lt0 i⟩ ⟨(i 1).val, idx2_lt1 i⟩) (Ideal.ofBits .f32 0x00000000#32)

/-- The running maximum of row p of the pre-activation, from −∞. -/
def rowTop (a x : FVec Ideal ⟨2, ![N, K]⟩ .f32) (wl wr : FVec Ideal ⟨2, ![K, B]⟩ .f32) (b : FVec Ideal ⟨1, ![B]⟩ .f32)
    (p : Fin N) : EReal :=
  (Finset.univ : Finset (Fin B)).fold max (Ideal.ofBits .f32 0xFF800000#32) (fun k => pre a x wl wr b p k)

/-- The last layer at row p and column q: the log-softmax of row p of the pre-activation. -/
def lsm (a x : FVec Ideal ⟨2, ![N, K]⟩ .f32) (wl wr : FVec Ideal ⟨2, ![K, B]⟩ .f32) (b : FVec Ideal ⟨1, ![B]⟩ .f32)
    (p : Fin N) (q : Fin B) : EReal :=
  (pre a x wl wr b p q - rowTop a x wl wr b p)
    - Ideal.log (∑ k : Fin B, Ideal.exp (pre a x wl wr b p k - rowTop a x wl wr b p))

/-- The last layer as one function of the result index. -/
def final (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  lsm a x wl wr b ⟨(i 0).val, idx2_lt0 i⟩ ⟨(i 1).val, idx2_lt1 i⟩

theorem hidden_ix2 (a x : FVec Ideal ⟨2, ![N, K]⟩ .f32) (wl wr : FVec Ideal ⟨2, ![K, B]⟩ .f32) (b : FVec Ideal ⟨1, ![B]⟩ .f32)
    (p : Fin N) (q : Fin B) :
    hidden a x wl wr b (ix2 p q) = max (pre a x wl wr b p q) (Ideal.ofBits .f32 0x00000000#32) := rfl

theorem final_ix2 (a x : FVec Ideal ⟨2, ![N, K]⟩ .f32) (wl wr : FVec Ideal ⟨2, ![K, B]⟩ .f32) (b : FVec Ideal ⟨1, ![B]⟩ .f32)
    (p : Fin N) (q : Fin B) : final a x wl wr b (ix2 p q) = lsm a x wl wr b p q := rfl

/-- A one-row matrix read as a vector. -/
def rowOf (r : FVec Ideal ⟨2, ![1, B]⟩ .f32) : FVec Ideal ⟨1, ![B]⟩ .f32 := fun i =>
  r (ix2 (0 : Fin 1) (⟨(i 0).val, (i 0).isLt⟩ : Fin B))

theorem rowOf_ix1 (r : FVec Ideal ⟨2, ![1, B]⟩ .f32) (q : Fin B) : rowOf r (ix1 q) = r (ix2 (0 : Fin 1) q) := rfl

/-- A vector cast to a one-row matrix and read back as a vector is the vector. -/
theorem rowOf_shapeCast (v : FVec Ideal ⟨1, ![B]⟩ .f32) (h : (⟨1, ![B]⟩ : Shape).ShapeCasts ⟨2, ![1, B]⟩) :
    rowOf (shapeCast ⟨2, ![1, B]⟩ v h) = v := by
  funext i
  obtain ⟨q, rfl⟩ : ∃ q : Fin B, i = ix1 q := ⟨i 0, eq_ix1 i⟩
  exact shapeCast_a_1a_apply v h 0 q

/-! ## A tile of rows, as a kernel body computes it -/

/-- Two matrix products of row tiles (after any change of float format) into zero accumulators, added, plus a bias row
    repeated along the rows, at (p, q): the layer's pre-activation of the tiles. -/
theorem tile_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    {φ : FTy} (a x : FVec Ideal ⟨2, ![N, K]⟩ φ) (wl wr : FVec Ideal ⟨2, ![K, B]⟩ φ) (r : FVec Ideal ⟨2, ![1, B]⟩ .f32)
    (hb : (⟨2, ![1, B]⟩ : Shape).Broadcasts ⟨2, ![N, B]⟩) (p : Fin N) (q : Fin B) :
    addf (addf (matmul D none a wl (constant ⟨2, ![N, B]⟩ .f32 0x00000000#32))
        (matmul D none x wr (constant ⟨2, ![N, B]⟩ .f32 0x00000000#32))) (broadcastTo ⟨2, ![N, B]⟩ r hb) (ix2 p q)
      = (∑ k : Fin K, a (ix2 p k) * wl (ix2 k q)) + (∑ k : Fin K, x (ix2 p k) * wr (ix2 k q)) + r (ix2 (0 : Fin 1) q) := by
  show (matmul D none a wl (constant ⟨2, ![N, B]⟩ .f32 0x00000000#32) (ix2 p q)
      + matmul D none x wr (constant ⟨2, ![N, B]⟩ .f32 0x00000000#32) (ix2 p q)) + broadcastTo ⟨2, ![N, B]⟩ r hb (ix2 p q) = _
  rw [Cert.Lib.matmul_plain_apply D wf hD a wl p q, Cert.Lib.matmul_plain_apply D wf hD x wr p q,
    broadcastTo_1b_ab_apply r hb p q]

/-- The last layer's tile: from the tile's pre-activation z, the row maximum kept as a column and repeated, the
    difference, its exponential summed along the row, the logarithm of that column repeated, and the second difference,
    at (p, q). -/
theorem tile_lsm (z : FVec Ideal ⟨2, ![N, B]⟩ .f32)
    (hred : (⟨2, ![N, B]⟩ : Shape).Reduces [1] ⟨1, ![N]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![N]⟩ : Shape).ShapeCasts ⟨2, ![N, 1]⟩) (hb : (⟨2, ![N, 1]⟩ : Shape).Broadcasts ⟨2, ![N, B]⟩)
    (p : Fin N) (q : Fin B) :
    subf (subf z (broadcastTo ⟨2, ![N, B]⟩ (shapeCast ⟨2, ![N, 1]⟩ (multiReduction .maximumf [1] ⟨1, ![N]⟩ z 0xFF800000#32 hred hφ hmax) hc) hb))
        (broadcastTo ⟨2, ![N, B]⟩ (log (shapeCast ⟨2, ![N, 1]⟩ (multiReduction .add [1] ⟨1, ![N]⟩
          (exp (subf z (broadcastTo ⟨2, ![N, B]⟩ (shapeCast ⟨2, ![N, 1]⟩ (multiReduction .maximumf [1] ⟨1, ![N]⟩ z 0xFF800000#32 hred hφ hmax) hc) hb)))
          0x00000000#32 hred hφ hadd) hc)) hb) (ix2 p q)
      = (z (ix2 p q) - (Finset.univ : Finset (Fin B)).fold max (Ideal.ofBits .f32 0xFF800000#32) (fun k => z (ix2 p k)))
        - Ideal.log (∑ k : Fin B, Ideal.exp (z (ix2 p k)
            - (Finset.univ : Finset (Fin B)).fold max (Ideal.ofBits .f32 0xFF800000#32) (fun k => z (ix2 p k)))) := by
  have hm : ∀ c : Fin B, broadcastTo ⟨2, ![N, B]⟩ (shapeCast ⟨2, ![N, 1]⟩ (multiReduction .maximumf [1] ⟨1, ![N]⟩ z 0xFF800000#32 hred hφ hmax) hc) hb (ix2 p c)
      = (Finset.univ : Finset (Fin B)).fold max (Ideal.ofBits .f32 0xFF800000#32) (fun k => z (ix2 p k)) :=
    fun c => Cert.Lib.rowMax_keepdims_apply z 0xFF800000#32 hred hφ hmax hc hb p c
  show (z (ix2 p q) - broadcastTo ⟨2, ![N, B]⟩ _ hb (ix2 p q)) - broadcastTo ⟨2, ![N, B]⟩ (log _) hb (ix2 p q) = _
  rw [hm q, Cert.Lib.broadcastTo_a1_ab_apply _ hb p q]
  show _ - Ideal.log (shapeCast ⟨2, ![N, 1]⟩ _ hc (ix2 p (0 : Fin 1))) = _
  rw [Cert.Lib.shapeCast_a_a1_apply _ hc p 0, Cert.Lib.rowSum_apply _ 0x00000000#32 hred hφ hadd p]
  refine congrArg (fun s => _ - Ideal.log s) (Finset.sum_congr rfl fun k _ => ?_)
  show Ideal.exp (z (ix2 p k) - broadcastTo ⟨2, ![N, B]⟩ _ hb (ix2 p k)) = _
  rw [hm k]

/-! ## The same on whole arrays, as the host computes it -/

/-- The host's two products, their sum and the bias vector repeated along the rows, at (p, q). -/
theorem host_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl) (Host.dotGeneral D none x wr))
        (broadcastInDim ⟨2, ![N, B]⟩ ![0, 1] h2 (broadcastInDim ⟨2, ![1, B]⟩ ![1] h1 b)) (ix2 p q)
      = pre a x wl wr b p q := by
  show (Host.dotGeneral D none a wl (ix2 p q) + Host.dotGeneral D none x wr (ix2 p q))
      + broadcastInDim ⟨2, ![N, B]⟩ ![0, 1] h2 (broadcastInDim ⟨2, ![1, B]⟩ ![1] h1 b) (ix2 p q) = _
  rw [Cert.Lib.dotGeneral_plain_apply D wf hD a wl p q, Cert.Lib.dotGeneral_plain_apply D wf hD x wr p q,
    Cert.Lib.bcast_vec_rows_apply b h1 h2 p q]
  rfl

/-- The maximum of a bound with a running maximum that starts from that bound is the running maximum. -/
theorem max_fold_start {ι : Type} (s : Finset ι) (b : EReal) (f : ι → EReal) :
    max b (s.fold max b f) = s.fold max b f :=
  max_eq_right ((Finset.le_fold_max b).mpr (Or.inl le_rfl))

/-! ## The network -/

/-- Three layers over features of one width — two hidden, the last a log-softmax — each fed the aggregation `agg`
    of the features it is given beside the features themselves. -/
def net {M D O : ℕ} (agg : FVec Ideal ⟨2, ![M, D]⟩ .f32 → FVec Ideal ⟨2, ![M, D]⟩ .f32)
    (x : FVec Ideal ⟨2, ![M, D]⟩ .f32) (w1l w1r : FVec Ideal ⟨2, ![D, D]⟩ .f32) (b1 : FVec Ideal ⟨1, ![D]⟩ .f32)
    (wml wmr : FVec Ideal ⟨2, ![D, D]⟩ .f32) (bm : FVec Ideal ⟨1, ![D]⟩ .f32)
    (w2l w2r : FVec Ideal ⟨2, ![D, O]⟩ .f32) (b2 : FVec Ideal ⟨1, ![O]⟩ .f32) : FVec Ideal ⟨2, ![M, O]⟩ .f32 :=
  final (agg (hidden (agg (hidden (agg x) x w1l w1r b1)) (hidden (agg x) x w1l w1r b1) wml wmr bm))
    (hidden (agg (hidden (agg x) x w1l w1r b1)) (hidden (agg x) x w1l w1r b1) wml wmr bm) w2l w2r b2

end Cert.Sage

end
-- ==== Proof.LibRowLocalLayers.lean ====
/-
  The dense part of the network, entry by entry, on the extended reals.

  Beside the graph-SAGE layer of LibDenseLayers (pre-activation `∑ₖ a(p,k)·wl(k,q) + ∑ₖ x(p,k)·wr(k,q) + b(q)`, then the
  maximum with zero) the network ends in a head of three dense layers `lin h w b (p,q) = ∑ₖ h(p,k)·w(k,q) + b(q)`, the
  first two followed by the tanh form of the Gaussian error linear unit,

      gelu v = v · (½ · (1 + tanh (c₂ · (v + c₁ · (v · (v · v)))))),

  with c₁, c₂, ½ and 1 the four float words both programs print.  The result is the one column of the last layer
  read as a vector.

  Each layer is stated once, for any number of rows, and then met in the two spellings the programs use: a tile of
  rows computed by matrix products into zero accumulators plus a one-row bias repeated along the rows (a change of
  float format being the identity here), and the whole array with the host's products and a bias vector repeated.
  The two spellings differ by the order of three summands in the SAGE layer and by `(v·v)·v` against `v·(v·v)` in
  the cube: addition and multiplication of extended reals are commutative and associative, so nothing has to be
  finite.  Every layer's row p depends only on row p of its row-wise input: that is what lets a tile of rows be
  read as a block of the whole array.
-/
import Idealize.ShloMosaic.PureOps.Ideal.Laws
import Idealize.ShloMosaic.Lib.ValueIdx
import Idealize.ShloMosaic.Lib.ValueLayout
import Idealize.ShloMosaic.Lib.Pipeline.Value
import proofs.«104102_j11493332484324_1_alg».proof.Proof.LibDenseLayers

noncomputable section

open scoped BigOperators

namespace Cert.Net

open Idealize.ShloMosaic Idealize.ShloMosaic.ValueIdx

variable {N n K B : ℕ}

/-! ## The functions -/

/-- The tanh form of the Gaussian error linear unit, with the programs' four float words. -/
def gelu (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * (v * v))))))

/-- The unit applied to every entry. -/
def act {s : Shape} (z : FVec Ideal s .f32) : FVec Ideal s .f32 := fun i => gelu (z i)

/-- A dense layer at row p and column q. -/
def linAt (h : FVec Ideal ⟨2, ![N, K]⟩ .f32) (w : FVec Ideal ⟨2, ![K, B]⟩ .f32) (b : FVec Ideal ⟨1, ![B]⟩ .f32)
    (p : Fin N) (q : Fin B) : EReal :=
  (∑ k : Fin K, h (ix2 p k) * w (ix2 k q)) + b (ix1 q)

/-- A dense layer as one function of the result index. -/
def lin (h : FVec Ideal ⟨2, ![N, K]⟩ .f32) (w : FVec Ideal ⟨2, ![K, B]⟩ .f32) (b : FVec Ideal ⟨1, ![B]⟩ .f32) :
    FVec Ideal ⟨2, ![N, B]⟩ .f32 := fun i =>
  linAt h w b ⟨(i 0).val, idx2_lt0 i⟩ ⟨(i 1).val, idx2_lt1 i⟩

theorem lin_ix2 (h : FVec Ideal ⟨2, ![N, K]⟩ .f32) (w : FVec Ideal ⟨2, ![K, B]⟩ .f32) (b : FVec Ideal ⟨1, ![B]⟩ .f32)
    (p : Fin N) (q : Fin B) : lin h w b (ix2 p q) = linAt h w b p q := rfl

/-- The head: two dense layers each under the unit, then a dense layer onto one column. -/
def head {K1 K2 : ℕ} (h : FVec Ideal ⟨2, ![N, K]⟩ .f32) (w1 : FVec Ideal ⟨2, ![K, K1]⟩ .f32) (b1 : FVec Ideal ⟨1, ![K1]⟩ .f32)
    (w2 : FVec Ideal ⟨2, ![K1, K2]⟩ .f32) (b2 : FVec Ideal ⟨1, ![K2]⟩ .f32)
    (w3 : FVec Ideal ⟨2, ![K2, B]⟩ .f32) (b3 : FVec Ideal ⟨1, ![B]⟩ .f32) : FVec Ideal ⟨2, ![N, B]⟩ .f32 :=
  lin (act (lin (act (lin h w1 b1)) w2 b2)) w3 b3

/-- The one column of an [N, 1] array read as a vector. -/
def column (y : FVec Ideal ⟨2, ![N, 1]⟩ .f32) : FVec Ideal ⟨1, ![N]⟩ .f32 := fun i =>
  y (ix2 (⟨(i 0).val, (i 0).isLt⟩ : Fin N) (0 : Fin 1))

/-! ## Rows: each layer's row depends on the same row of its row-wise input only -/

/-- Row r of H is row p of h. -/
def RowEq {M m C : ℕ} (H : FVec Ideal ⟨2, ![M, C]⟩ .f32) (h : FVec Ideal ⟨2, ![m, C]⟩ .f32) (r : Fin M) (p : Fin m) : Prop :=
  ∀ k : Fin C, H (ix2 r k) = h (ix2 p k)

theorem lin_rowEq (H : FVec Ideal ⟨2, ![N, K]⟩ .f32) (h : FVec Ideal ⟨2, ![n, K]⟩ .f32) (w : FVec Ideal ⟨2, ![K, B]⟩ .f32)
    (b : FVec Ideal ⟨1, ![B]⟩ .f32) (r : Fin N) (p : Fin n) (e : RowEq H h r p) : RowEq (lin H w b) (lin h w b) r p := by
  intro q
  rw [lin_ix2, lin_ix2]
  unfold linAt
  exact congrArg (· + b (ix1 q)) (Finset.sum_congr rfl fun k _ => by rw [e k])

theorem act_rowEq {C : ℕ} (H : FVec Ideal ⟨2, ![N, C]⟩ .f32) (h : FVec Ideal ⟨2, ![n, C]⟩ .f32) (r : Fin N) (p : Fin n)
    (e : RowEq H h r p) : RowEq (act H) (act h) r p := fun k => congrArg gelu (e k)

theorem head_rowEq {K1 K2 : ℕ} (H : FVec Ideal ⟨2, ![N, K]⟩ .f32) (h : FVec Ideal ⟨2, ![n, K]⟩ .f32)
    (w1 : FVec Ideal ⟨2, ![K, K1]⟩ .f32) (b1 : FVec Ideal ⟨1, ![K1]⟩ .f32)
    (w2 : FVec Ideal ⟨2, ![K1, K2]⟩ .f32) (b2 : FVec Ideal ⟨1, ![K2]⟩ .f32)
    (w3 : FVec Ideal ⟨2, ![K2, B]⟩ .f32) (b3 : FVec Ideal ⟨1, ![B]⟩ .f32) (r : Fin N) (p : Fin n) (e : RowEq H h r p) :
    RowEq (head H w1 b1 w2 b2 w3 b3) (head h w1 b1 w2 b2 w3 b3) r p :=
  lin_rowEq _ _ _ _ r p (act_rowEq _ _ r p (lin_rowEq _ _ _ _ r p (act_rowEq _ _ r p (lin_rowEq _ _ _ _ r p e))))

theorem hidden_rowEq (A X : FVec Ideal ⟨2, ![N, K]⟩ .f32) (a x : FVec Ideal ⟨2, ![n, K]⟩ .f32)
    (wl wr : FVec Ideal ⟨2, ![K, B]⟩ .f32) (b : FVec Ideal ⟨1, ![B]⟩ .f32) (r : Fin N) (p : Fin n)
    (ea : RowEq A a r p) (ex : RowEq X x r p) :
    RowEq (Cert.Sage.hidden A X wl wr b) (Cert.Sage.hidden a x wl wr b) r p := by
  intro q
  rw [Cert.Sage.hidden_ix2, Cert.Sage.hidden_ix2]
  unfold Cert.Sage.pre
  refine congrArg (fun s => max (s + b (ix1 q)) _) ?_
  exact congrArg₂ (· + ·) (Finset.sum_congr rfl fun k _ => by rw [ea k]) (Finset.sum_congr rfl fun k _ => by rw [ex k])

/-! ## A tile of rows, as a kernel body computes it -/

/-- The SAGE layer of a tile: two products of the tile's rows (rounded to a narrower format, the identity here) into
    zero accumulators, their sum, the one-row bias repeated along the rows, and the maximum with a zero splat. -/
theorem tile_hidden (D : DotDims ⟨2, ![n, K]⟩ ⟨2, ![K, B]⟩ ⟨2, ![n, B]⟩)
    (wf : DotDims.WF ⟨2, ![n, K]⟩ ⟨2, ![K, B]⟩ ⟨2, ![n, B]⟩ [1] [0] [0] [1] [] []) (hD : D = Cert.Lib.plain2 wf)
    (a x : FVec Ideal ⟨2, ![n, K]⟩ .f32) (wl wr : FVec Ideal ⟨2, ![K, B]⟩ .f32) (r : FVec Ideal ⟨2, ![1, B]⟩ .f32)
    (hb : (⟨2, ![1, B]⟩ : Shape).Broadcasts ⟨2, ![n, B]⟩) (h16 : FTy.bf16.bits < FTy.f32.bits) :
    maximumf (addf (addf (matmul D none (truncf .bf16 a h16) (truncf .bf16 wl h16) (constant ⟨2, ![n, B]⟩ .f32 0x00000000#32))
        (matmul D none (truncf .bf16 x h16) (truncf .bf16 wr h16) (constant ⟨2, ![n, B]⟩ .f32 0x00000000#32)))
        (broadcastTo ⟨2, ![n, B]⟩ r hb)) (broadcast ⟨2, ![n, B]⟩ (Scalar.ofBits (F := Ideal) .f32 0x00000000#32))
      = Cert.Sage.hidden a x wl wr (Cert.Sage.rowOf r) := by
  funext i
  obtain ⟨p, q, rfl⟩ : ∃ (p : Fin n) (q : Fin B), i = ix2 p q := ⟨i 0, i 1, eq_ix2 i⟩
  rw [Cert.Sage.hidden_ix2]
  refine congrArg (fun s => max s _) ?_
  exact Cert.Sage.tile_pre D wf hD (truncf .bf16 a h16) (truncf .bf16 x h16) (truncf .bf16 wl h16) (truncf .bf16 wr h16) r hb p q

/-- A dense layer of a tile: the product into a zero accumulator plus the one-row bias repeated along the rows. -/
theorem tile_lin (D : DotDims ⟨2, ![n, K]⟩ ⟨2, ![K, B]⟩ ⟨2, ![n, B]⟩)
    (wf : DotDims.WF ⟨2, ![n, K]⟩ ⟨2, ![K, B]⟩ ⟨2, ![n, B]⟩ [1] [0] [0] [1] [] []) (hD : D = Cert.Lib.plain2 wf)
    (h : FVec Ideal ⟨2, ![n, K]⟩ .f32) (w : FVec Ideal ⟨2, ![K, B]⟩ .f32) (r : FVec Ideal ⟨2, ![1, B]⟩ .f32)
    (hb : (⟨2, ![1, B]⟩ : Shape).Broadcasts ⟨2, ![n, B]⟩) (h16 : FTy.bf16.bits < FTy.f32.bits) :
    addf (matmul D none (truncf .bf16 h h16) (truncf .bf16 w h16) (constant ⟨2, ![n, B]⟩ .f32 0x00000000#32))
        (broadcastTo ⟨2, ![n, B]⟩ r hb)
      = lin h w (Cert.Sage.rowOf r) := by
  funext i
  obtain ⟨p, q, rfl⟩ : ∃ (p : Fin n) (q : Fin B), i = ix2 p q := ⟨i 0, i 1, eq_ix2 i⟩
  rw [lin_ix2]
  show matmul D none (truncf .bf16 h h16) (truncf .bf16 w h16) (constant ⟨2, ![n, B]⟩ .f32 0x00000000#32) (ix2 p q)
      + broadcastTo ⟨2, ![n, B]⟩ r hb (ix2 p q) = _
  rw [Cert.Lib.matmul_plain_apply D wf hD (truncf .bf16 h h16) (truncf .bf16 w h16) p q, broadcastTo_1b_ab_apply r hb p q]
  rfl

/-- The unit as a kernel body spells it, every constant a splat. -/
theorem tile_act {s : Shape} (z : FVec Ideal s .f32) :
    mulf z (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf z (mulf (broadcast s (Scalar.ofBits (F := Ideal) .f32 0x3D372713#32)) (mulf z (mulf z z))))))))
      = act z := rfl

/-! ## The whole arrays, as the host computes them -/

/-- The SAGE layer on whole arrays: the bias is added between the two products, and the maximum is with a broadcast
    zero constant.  Addition of extended reals is commutative and associative. -/
theorem host_hidden (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1])
    (h0 : (⟨0, ![]⟩ : Shape).BroadcastsInDim ⟨2, ![N, B]⟩ ![]) :
    maximumf (addf (addf (Host.dotGeneral D none a wl)
          (broadcastInDim ⟨2, ![N, B]⟩ ![0, 1] h2 (broadcastInDim ⟨2, ![1, B]⟩ ![1] h1 b)))
        (Host.dotGeneral D none x wr))
        (broadcastInDim ⟨2, ![N, B]⟩ ![] h0 (constant (F := Ideal) ⟨0, ![]⟩ .f32 0x00000000#32))
      = Cert.Sage.hidden a x wl wr b := by
  funext i
  obtain ⟨p, q, rfl⟩ : ∃ (p : Fin N) (q : Fin B), i = ix2 p q := ⟨i 0, i 1, eq_ix2 i⟩
  rw [Cert.Sage.hidden_ix2]
  show max ((Host.dotGeneral D none a wl (ix2 p q)
        + broadcastInDim ⟨2, ![N, B]⟩ ![0, 1] h2 (broadcastInDim ⟨2, ![1, B]⟩ ![1] h1 b) (ix2 p q))
        + Host.dotGeneral D none x wr (ix2 p q))
      (broadcastInDim ⟨2, ![N, B]⟩ ![] h0 (constant (F := Ideal) ⟨0, ![]⟩ .f32 0x00000000#32) (ix2 p q)) = _
  rw [Cert.Lib.dotGeneral_plain_apply D wf hD a wl p q, Cert.Lib.dotGeneral_plain_apply D wf hD x wr p q,
    Cert.Lib.bcast_vec_rows_apply b h1 h2 p q, Cert.Lib.bcast_scalar_apply h0 0x00000000#32 (ix2 p q)]
  unfold Cert.Sage.pre
  rw [add_right_comm]

/-- A dense layer on whole arrays. -/
theorem host_lin (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (h : FVec Ideal ⟨2, ![N, K]⟩ .f32) (w : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) :
    addf (Host.dotGeneral D none h w) (broadcastInDim ⟨2, ![N, B]⟩ ![0, 1] h2 (broadcastInDim ⟨2, ![1, B]⟩ ![1] h1 b))
      = lin h w b := by
  funext i
  obtain ⟨p, q, rfl⟩ : ∃ (p : Fin N) (q : Fin B), i = ix2 p q := ⟨i 0, i 1, eq_ix2 i⟩
  rw [lin_ix2]
  show Host.dotGeneral D none h w (ix2 p q)
      + broadcastInDim ⟨2, ![N, B]⟩ ![0, 1] h2 (broadcastInDim ⟨2, ![1, B]⟩ ![1] h1 b) (ix2 p q) = _
  rw [Cert.Lib.dotGeneral_plain_apply D wf hD h w p q, Cert.Lib.bcast_vec_rows_apply b h1 h2 p q]
  rfl

/-- The unit as the host spells it: the cube is `(z·z)·z`, every constant a broadcast scalar. -/
theorem host_act {s : Shape} (z : FVec Ideal s .f32) (h0 : (⟨0, ![]⟩ : Shape).BroadcastsInDim s ![]) :
    mulf z (mulf (broadcastInDim s ![] h0 (constant (F := Ideal) ⟨0, ![]⟩ .f32 0x3F000000#32))
      (addf (broadcastInDim s ![] h0 (constant (F := Ideal) ⟨0, ![]⟩ .f32 0x3F800000#32))
        (Host.tanh (mulf (broadcastInDim s ![] h0 (constant (F := Ideal) ⟨0, ![]⟩ .f32 0x3F4C422A#32))
          (addf z (mulf (broadcastInDim s ![] h0 (constant (F := Ideal) ⟨0, ![]⟩ .f32 0x3D372713#32)) (mulf (mulf z z) z)))))))
      = act z := by
  funext i
  show z i * (broadcastInDim s ![] h0 (constant (F := Ideal) ⟨0, ![]⟩ .f32 0x3F000000#32) i
      * (broadcastInDim s ![] h0 (constant (F := Ideal) ⟨0, ![]⟩ .f32 0x3F800000#32) i
        + Ideal.tanh (broadcastInDim s ![] h0 (constant (F := Ideal) ⟨0, ![]⟩ .f32 0x3F4C422A#32) i
          * (z i + broadcastInDim s ![] h0 (constant (F := Ideal) ⟨0, ![]⟩ .f32 0x3D372713#32) i * ((z i * z i) * z i))))) = _
  rw [Cert.Lib.bcast_scalar_apply h0 0x3F000000#32 i, Cert.Lib.bcast_scalar_apply h0 0x3F800000#32 i,
    Cert.Lib.bcast_scalar_apply h0 0x3F4C422A#32 i, Cert.Lib.bcast_scalar_apply h0 0x3D372713#32 i,
    mul_comm (z i * z i) (z i)]
  rfl

/-- An [N, 1] array recast as a vector is its column. -/
theorem cast_column (y : FVec Ideal ⟨2, ![N, 1]⟩ .f32) (h : (⟨2, ![N, 1]⟩ : Shape).ShapeCasts ⟨1, ![N]⟩) :
    shapeCast ⟨1, ![N]⟩ y h = column y := by
  funext i
  obtain ⟨p, rfl⟩ : ∃ p : Fin N, i = ix1 p := ⟨i 0, eq_ix1 i⟩
  exact shapeCast_apply y h _ _ (by
    rw [Shape.rowMajor_val_two, Shape.rowMajor_val_one]
    show p.val * 1 + 0 = p.val
    omega)

/-- A vector recast as a one-row matrix and read back as a vector is the vector (LibDenseLayers' `rowOf`). -/
theorem rowOf_cast (v : FVec Ideal ⟨1, ![B]⟩ .f32) (h : (⟨1, ![B]⟩ : Shape).ShapeCasts ⟨2, ![1, B]⟩) :
    Cert.Sage.rowOf (shapeCast ⟨2, ![1, B]⟩ v h) = v := Cert.Sage.rowOf_shapeCast v h

end Cert.Net

end
-- ==== Proof.Stage0.lean ====
/-
  The first SAGE stage's launch: its output array as one function of the arrays it is entered with.

  The launch has 25 grid points. At point t the body is given rows 2000·t … 2000·t + 1999 of the aggregated features
  and of the node features, the two whole weight matrices and the one-row bias, and stores the SAGE layer of those
  blocks (LibDenseLayers' `hidden`: the maximum with zero of `∑ₖ a(p,k)·wl(k,q) + ∑ₖ x(p,k)·wr(k,q) + b(q)`), which is
  written back as rows 2000·t … 2000·t + 1999 of the output.  Row p of the layer of a block depends on row p of the
  two row blocks only, so the block the point writes is the same rows of the layer of the WHOLE arrays; the 25 blocks
  cover the output array, which therefore ends holding the layer of the whole arrays — whatever contents `V` the
  launch is entered with.
-/
import proofs.«104102_j11493332484324_1_alg».proof.Proof.PatchedKernelIdealFrame
import proofs.«104102_j11493332484324_1_alg».proof.Proof.LibRowLocalLayers
import Idealize.ShloMosaic.Lib.Pipeline.Value

set_option maxRecDepth 16384

noncomputable section

namespace Cert.KernelIdeal.Stage0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- What the body stores is the SAGE layer of its loaded blocks. -/
theorem pay_eq (x0 x1 : Vec Ideal S2000x256 .f32) (x2 x4 : Vec Ideal S256x128 .f32) (x3 : Vec Ideal S1x128 .f32) :
    k0_pay1 x0 x1 x2 x4 x3 = Cert.Sage.hidden (N := 2000) (K := 256) (B := 128) x0 x1 x2 x4 (Cert.Sage.rowOf x3) := by
  unfold k0_pay1
  simp only [shapeCast_self]
  exact Cert.Net.tile_hidden dot_S2000x256_S256x128_S2000x128_1_0_0_1_n_n (dot_S2000x256_S256x128_S2000x128_1_0_0_1_n_n).wf rfl x0 x1 x2 x4 x3 _ _

/-- The stage's output as one function of the arrays the launch is entered with. -/
def G (c : Dev nD) : FVec Ideal S50000x128 .f32 :=
  Cert.Sage.hidden (N := 50000) (K := 256) (B := 128) (V c main_v22 : FVec Ideal S50000x256 .f32) (V c main_arg0 : FVec Ideal S50000x256 .f32)
    (V c main_arg2 : FVec Ideal S256x128 .f32) (V c main_arg4 : FVec Ideal S256x128 .f32) (Cert.Sage.rowOf (V c main_v23 : FVec Ideal S1x128 .f32))

/-- The printed index maps, decided over the grid: the two row windows move with the output window, whose block index
    along the rows is below 25; the weights' and the bias's blocks stay at the origin. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every band of 2000 rows is some point's block. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- The left weight matrix's block at any point is the whole matrix. -/
theorem wl_blk (c : Dev nD) (t : Fin cfg0.N) : (iblk0 V c 2 t : Vec Ideal S256x128 .f32) = (V c main_arg2 : FVec Ideal S256x128 .f32) := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The bias row's block at any point is the whole row. -/
theorem b_blk (c : Dev nD) (t : Fin cfg0.N) : (iblk0 V c 3 t : Vec Ideal S1x128 .f32) = (V c main_v23 : FVec Ideal S1x128 .f32) := by
  obtain ⟨-, -, -, -, -, -, e0, e1, -⟩ := idx_facts t
  funext y
  show V c main_v23 (((cfg0.win 3).blk t).view.emb y) = V c main_v23 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The right weight matrix's block at any point is the whole matrix. -/
theorem wr_blk (c : Dev nD) (t : Fin cfg0.N) : (iblk0 V c 4 t : Vec Ideal S256x128 .f32) = (V c main_arg4 : FVec Ideal S256x128 .f32) := by
  obtain ⟨-, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- Row p of the aggregated features' block at point t is row `index·2000 + p` of the array. -/
theorem a_blk (c : Dev nD) (t : Fin cfg0.N) (p : Fin 2000) (k : Fin 256) (r : Fin 50000)
    (hr : r.val = win0_5.index t (0 : Fin 2) * 2000 + p.val) :
    (iblk0 V c 0 t : Vec Ideal S2000x256 .f32) (ix2 p k) = (V c main_v22 : FVec Ideal S50000x256 .f32) (ix2 r k) := by
  obtain ⟨e0, e1, -⟩ := idx_facts t
  show V c main_v22 (((cfg0.win 0).blk t).view.emb (ix2 p k)) = V c main_v22 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The same for the node features' block. -/
theorem x_blk (c : Dev nD) (t : Fin cfg0.N) (p : Fin 2000) (k : Fin 256) (r : Fin 50000)
    (hr : r.val = win0_5.index t (0 : Fin 2) * 2000 + p.val) :
    (iblk0 V c 1 t : Vec Ideal S2000x256 .f32) (ix2 p k) = (V c main_arg0 : FVec Ideal S50000x256 .f32) (ix2 r k) := by
  obtain ⟨-, -, e0, e1, -⟩ := idx_facts t
  show V c main_arg0 (((cfg0.win 1).blk t).view.emb (ix2 p k)) = V c main_arg0 (ix2 r k)
  refine congrArg _ (funext fun a => Fin.ext ?_)
  match a with
  | ⟨0, _⟩ => show win0_1.index t (0 : Fin 2) * 2000 + 1 * p.val = r.val; omega
  | ⟨1, _⟩ => show win0_1.index t (1 : Fin 2) * 256 + 1 * k.val = k.val; omega

/-- Reading a block of the output through the window: if entry (p, q) of a tile `f` is entry (index·2000 + p, q) of a whole
    array `g`, then `f`, cut to the block, is block t of `g`. -/
theorem blk_read_eq (t : Fin cfg0.N) (f : Vec Ideal S2000x128 .f32) (g : FVec Ideal S50000x128 .f32)
    (h : ∀ (p : Fin 2000) (q : Fin 128) (r : Fin 50000), r.val = win0_5.index t (0 : Fin 2) * 2000 + p.val → f (ix2 p q) = g (ix2 r q)) :
    (cfg0.win 5).cut (grid0.coords t) f = ((cfg0.win 5).blk t).view.read (Elt Ideal) g := by
  obtain ⟨-, -, -, -, -, -, -, -, -, -, e51, e50⟩ := idx_facts t
  funext j
  have hj0 : (j 0).val < 2000 := (j 0).isLt
  have hj1 : (j 1).val < 128 := (j 1).isLt
  show f j = g (((cfg0.win 5).blk t).view.emb j)
  have ej : j = ix2 (⟨(j 0).val, hj0⟩ : Fin 2000) (⟨(j 1).val, hj1⟩ : Fin 128) := eq_ix2 (n0 := 2000) (n1 := 128) j
  have er : ((cfg0.win 5).blk t).view.emb j
      = ix2 (⟨win0_5.index t (0 : Fin 2) * 2000 + (j 0).val, by omega⟩ : Fin 50000) (⟨(j 1).val, hj1⟩ : Fin 128) := by
    funext a
    apply Fin.ext
    match a with
    | ⟨0, _⟩ => show win0_5.index t (0 : Fin 2) * 2000 + 1 * (j 0).val = win0_5.index t (0 : Fin 2) * 2000 + (j 0).val; omega
    | ⟨1, _⟩ => show win0_5.index t (1 : Fin 2) * 128 + 1 * (j 1).val = (j 1).val; omega
  exact (congrArg f ej).trans ((h ⟨(j 0).val, hj0⟩ ⟨(j 1).val, hj1⟩ ⟨win0_5.index t (0 : Fin 2) * 2000 + (j 0).val, by omega⟩ rfl).trans
    (congrArg g er.symm))

/-- Entry (p, q) of the layer of the point's blocks is entry (index·2000 + p, q) of `G`: the layer's row depends on the
    same row of its two row-wise inputs only. -/
theorem blk_entry (c : Dev nD) (t : Fin cfg0.N) (p : Fin 2000) (q : Fin 128) (r : Fin 50000)
    (hr : r.val = win0_5.index t (0 : Fin 2) * 2000 + p.val) :
    Cert.Sage.hidden (N := 2000) (K := 256) (B := 128) (iblk0 V c 0 t : Vec Ideal S2000x256 .f32) (iblk0 V c 1 t : Vec Ideal S2000x256 .f32)
        (V c main_arg2 : FVec Ideal S256x128 .f32) (V c main_arg4 : FVec Ideal S256x128 .f32) (Cert.Sage.rowOf (V c main_v23 : FVec Ideal S1x128 .f32)) (ix2 p q)
      = G V c (ix2 r q) :=
  (Cert.Net.hidden_rowEq (V c main_v22 : FVec Ideal S50000x256 .f32) (V c main_arg0 : FVec Ideal S50000x256 .f32)
    (iblk0 V c 0 t : Vec Ideal S2000x256 .f32) (iblk0 V c 1 t : Vec Ideal S2000x256 .f32) _ _ _ r p
    (fun k => (a_blk V c t p k r hr).symm) (fun k => (x_blk V c t p k r hr).symm) q).symm

/-- WHAT POINT t WRITES BACK is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x128) hz, View.ld_unit_zero (S := S1x128) hz]
  rw [pay_eq, wl_blk V c t, b_blk V c t, wr_blk V c t]
  exact blk_read_eq t _ (G V c) (fun p q r hr => blk_entry V c t p q r hr)

/-- An index of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- The 25 blocks cover the output array: row r is in the block of point r / 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after the launch is `G` of the arrays it was entered with. -/
theorem final (c : Dev nD) : (dat0 V c).arrAt 5 cfg0.N = G V c :=
  (dat0 V c).arrAt_eq_of_cover 5 (G V c) (fun t _ => flushed_eq V c t) (cover)

end Cert.KernelIdeal.Stage0

end
-- ==== Proof.Stage1.lean ====
/-
  The second SAGE stage's launch: its output array as one function of the arrays it is entered with.

  The launch has 25 grid points. At point t the body is given rows 2000·t … 2000·t + 1999 of the aggregated features
  and of the node features, the two whole weight matrices and the one-row bias, and stores the SAGE layer of those
  blocks (LibDenseLayers' `hidden`: the maximum with zero of `∑ₖ a(p,k)·wl(k,q) + ∑ₖ x(p,k)·wr(k,q) + b(q)`), which is
  written back as rows 2000·t … 2000·t + 1999 of the output.  Row p of the layer of a block depends on row p of the
  two row blocks only, so the block the point writes is the same rows of the layer of the WHOLE arrays; the 25 blocks
  cover the output array, which therefore ends holding the layer of the whole arrays — whatever contents `V` the
  launch is entered with.
-/
import proofs.«104102_j11493332484324_1_alg».proof.Proof.PatchedKernelIdealFrame
import proofs.«104102_j11493332484324_1_alg».proof.Proof.LibRowLocalLayers
import Idealize.ShloMosaic.Lib.Pipeline.Value

set_option maxRecDepth 16384

noncomputable section

namespace Cert.KernelIdeal.Stage1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- What the body stores is the SAGE layer of its loaded blocks. -/
theorem pay_eq (x0 x1 : Vec Ideal S2000x128 .f32) (x2 x4 : Vec Ideal S128x128 .f32) (x3 : Vec Ideal S1x128 .f32) :
    k1_pay1 x0 x1 x2 x4 x3 = Cert.Sage.hidden (N := 2000) (K := 128) (B := 128) x0 x1 x2 x4 (Cert.Sage.rowOf x3) := by
  unfold k1_pay1
  simp only [shapeCast_self]
  exact Cert.Net.tile_hidden dot_S2000x128_S128x128_S2000x128_1_0_0_1_n_n (dot_S2000x128_S128x128_S2000x128_1_0_0_1_n_n).wf rfl x0 x1 x2 x4 x3 _ _

/-- The stage's output as one function of the arrays the launch is entered with. -/
def G (c : Dev nD) : FVec Ideal S50000x128 .f32 :=
  Cert.Sage.hidden (N := 50000) (K := 128) (B := 128) (V c main_v43 : FVec Ideal S50000x128 .f32) (V c main_v24 : FVec Ideal S50000x128 .f32)
    (V c main_arg5 : FVec Ideal S128x128 .f32) (V c main_arg7 : FVec Ideal S128x128 .f32) (Cert.Sage.rowOf (V c main_v44 : FVec Ideal S1x128 .f32))

/-- The printed index maps, decided over the grid: the two row windows move with the output window, whose block index
    along the rows is below 25; the weights' and the bias's blocks stay at the origin. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every band of 2000 rows is some point's block. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- The left weight matrix's block at any point is the whole matrix. -/
theorem wl_blk (c : Dev nD) (t : Fin cfg1.N) : (iblk1 V c 2 t : Vec Ideal S128x128 .f32) = (V c main_arg5 : FVec Ideal S128x128 .f32) := by
  obtain ⟨-, -, -, -, e0, e1, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block at any point is the whole row. -/
theorem b_blk (c : Dev nD) (t : Fin cfg1.N) : (iblk1 V c 3 t : Vec Ideal S1x128 .f32) = (V c main_v44 : FVec Ideal S1x128 .f32) := by
  obtain ⟨-, -, -, -, -, -, e0, e1, -⟩ := idx_facts t
  funext y
  show V c main_v44 (((cfg1.win 3).blk t).view.emb y) = V c main_v44 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The right weight matrix's block at any point is the whole matrix. -/
theorem wr_blk (c : Dev nD) (t : Fin cfg1.N) : (iblk1 V c 4 t : Vec Ideal S128x128 .f32) = (V c main_arg7 : FVec Ideal S128x128 .f32) := by
  obtain ⟨-, -, -, -, -, -, -, -, e0, e1, -⟩ := idx_facts t
  funext y
  show V c main_arg7 (((cfg1.win 4).blk t).view.emb y) = V c main_arg7 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Row p of the aggregated features' block at point t is row `index·2000 + p` of the array. -/
theorem a_blk (c : Dev nD) (t : Fin cfg1.N) (p : Fin 2000) (k : Fin 128) (r : Fin 50000)
    (hr : r.val = win1_5.index t (0 : Fin 2) * 2000 + p.val) :
    (iblk1 V c 0 t : Vec Ideal S2000x128 .f32) (ix2 p k) = (V c main_v43 : FVec Ideal S50000x128 .f32) (ix2 r k) := by
  obtain ⟨e0, e1, -⟩ := idx_facts t
  show V c main_v43 (((cfg1.win 0).blk t).view.emb (ix2 p k)) = V c main_v43 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The same for the node features' block. -/
theorem x_blk (c : Dev nD) (t : Fin cfg1.N) (p : Fin 2000) (k : Fin 128) (r : Fin 50000)
    (hr : r.val = win1_5.index t (0 : Fin 2) * 2000 + p.val) :
    (iblk1 V c 1 t : Vec Ideal S2000x128 .f32) (ix2 p k) = (V c main_v24 : FVec Ideal S50000x128 .f32) (ix2 r k) := by
  obtain ⟨-, -, e0, e1, -⟩ := idx_facts t
  show V c main_v24 (((cfg1.win 1).blk t).view.emb (ix2 p k)) = V c main_v24 (ix2 r k)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- Reading a block of the output through the window: if entry (p, q) of a tile `f` is entry (index·2000 + p, q) of a whole
    array `g`, then `f`, cut to the block, is block t of `g`. -/
theorem blk_read_eq (t : Fin cfg1.N) (f : Vec Ideal S2000x128 .f32) (g : FVec Ideal S50000x128 .f32)
    (h : ∀ (p : Fin 2000) (q : Fin 128) (r : Fin 50000), r.val = win1_5.index t (0 : Fin 2) * 2000 + p.val → f (ix2 p q) = g (ix2 r q)) :
    (cfg1.win 5).cut (grid1.coords t) f = ((cfg1.win 5).blk t).view.read (Elt Ideal) g := by
  obtain ⟨-, -, -, -, -, -, -, -, -, -, e51, e50⟩ := idx_facts t
  funext j
  have hj0 : (j 0).val < 2000 := (j 0).isLt
  have hj1 : (j 1).val < 128 := (j 1).isLt
  show f j = g (((cfg1.win 5).blk t).view.emb j)
  have ej : j = ix2 (⟨(j 0).val, hj0⟩ : Fin 2000) (⟨(j 1).val, hj1⟩ : Fin 128) := eq_ix2 (n0 := 2000) (n1 := 128) j
  have er : ((cfg1.win 5).blk t).view.emb j
      = ix2 (⟨win1_5.index t (0 : Fin 2) * 2000 + (j 0).val, by omega⟩ : Fin 50000) (⟨(j 1).val, hj1⟩ : Fin 128) := by
    funext a
    apply Fin.ext
    match a with
    | ⟨0, _⟩ => show win1_5.index t (0 : Fin 2) * 2000 + 1 * (j 0).val = win1_5.index t (0 : Fin 2) * 2000 + (j 0).val; omega
    | ⟨1, _⟩ => show win1_5.index t (1 : Fin 2) * 128 + 1 * (j 1).val = (j 1).val; omega
  exact (congrArg f ej).trans ((h ⟨(j 0).val, hj0⟩ ⟨(j 1).val, hj1⟩ ⟨win1_5.index t (0 : Fin 2) * 2000 + (j 0).val, by omega⟩ rfl).trans
    (congrArg g er.symm))

/-- Entry (p, q) of the layer of the point's blocks is entry (index·2000 + p, q) of `G`: the layer's row depends on the
    same row of its two row-wise inputs only. -/
theorem blk_entry (c : Dev nD) (t : Fin cfg1.N) (p : Fin 2000) (q : Fin 128) (r : Fin 50000)
    (hr : r.val = win1_5.index t (0 : Fin 2) * 2000 + p.val) :
    Cert.Sage.hidden (N := 2000) (K := 128) (B := 128) (iblk1 V c 0 t : Vec Ideal S2000x128 .f32) (iblk1 V c 1 t : Vec Ideal S2000x128 .f32)
        (V c main_arg5 : FVec Ideal S128x128 .f32) (V c main_arg7 : FVec Ideal S128x128 .f32) (Cert.Sage.rowOf (V c main_v44 : FVec Ideal S1x128 .f32)) (ix2 p q)
      = G V c (ix2 r q) :=
  (Cert.Net.hidden_rowEq (V c main_v43 : FVec Ideal S50000x128 .f32) (V c main_v24 : FVec Ideal S50000x128 .f32)
    (iblk1 V c 0 t : Vec Ideal S2000x128 .f32) (iblk1 V c 1 t : Vec Ideal S2000x128 .f32) _ _ _ r p
    (fun k => (a_blk V c t p k r hr).symm) (fun k => (x_blk V c t p k r hr).symm) q).symm

/-- WHAT POINT t WRITES BACK is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [pay_eq, wl_blk V c t, b_blk V c t, wr_blk V c t]
  exact blk_read_eq t _ (G V c) (fun p q r hr => blk_entry V c t p q r hr)

/-- An index of the output array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- The 25 blocks cover the output array: row r is in the block of point r / 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the launch is `G` of the arrays it was entered with. -/
theorem final (c : Dev nD) : (dat1 V c).arrAt 5 cfg1.N = G V c :=
  (dat1 V c).arrAt_eq_of_cover 5 (G V c) (fun t _ => flushed_eq V c t) (cover)

end Cert.KernelIdeal.Stage1

end
-- ==== Proof.Stage2.lean ====
/-
  The head's launch: its output array as one function of the arrays it is entered with.

  The launch has 25 grid points. At point t the body is given rows 2000·t … 2000·t + 1999 of the second SAGE layer's
  output, the three whole weight matrices and the three one-row biases, and stores the head of that block (LibRowLocalLayers.lean's
  `head`: two dense layers each under the tanh form of the Gaussian error linear unit, then a dense layer onto one
  column), written back as rows 2000·t … 2000·t + 1999 of the [50000, 1] output.  Row p of the head of a block
  depends on row p of the block only, so what the point writes is the same rows of the head of the WHOLE array; the
  25 blocks cover the output array, which therefore ends holding the head of the whole array.
-/
import proofs.«104102_j11493332484324_1_alg».proof.Proof.PatchedKernelIdealFrame
import proofs.«104102_j11493332484324_1_alg».proof.Proof.LibRowLocalLayers
import Idealize.ShloMosaic.Lib.Pipeline.Value

set_option maxRecDepth 16384

noncomputable section

namespace Cert.KernelIdeal.Stage2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The second dense layer's value in the body: the first dense layer, the unit, the second dense layer. -/
theorem mid_eq (x0 : Vec Ideal S2000x128 .f32) (x1 : Vec Ideal S128x512 .f32) (x2 : Vec Ideal S1x512 .f32)
    (x3 : Vec Ideal S512x128 .f32) (x4 : Vec Ideal S1x128 .f32) :
    k2_pay2 x0 x1 x2 x3 x4
      = Cert.Net.lin (N := 2000) (K := 512) (B := 128)
          (Cert.Net.act (Cert.Net.lin (N := 2000) (K := 128) (B := 512) x0 x1 (Cert.Sage.rowOf x2))) x3 (Cert.Sage.rowOf x4) := by
  unfold k2_pay2
  simp only [shapeCast_self]
  rw [Cert.Net.tile_lin dot_S2000x128_S128x512_S2000x512_1_0_0_1_n_n (dot_S2000x128_S128x512_S2000x512_1_0_0_1_n_n).wf rfl x0 x1 x2 _ _,
    Cert.Net.tile_act]
  exact Cert.Net.tile_lin dot_S2000x512_S512x128_S2000x128_1_0_0_1_n_n (dot_S2000x512_S512x128_S2000x128_1_0_0_1_n_n).wf rfl _ x3 x4 _ _

/-- What the body stores is the head of its loaded blocks. -/
theorem pay_eq (x0 : Vec Ideal S2000x128 .f32) (x1 : Vec Ideal S128x512 .f32) (x2 : Vec Ideal S1x512 .f32)
    (x3 : Vec Ideal S512x128 .f32) (x4 : Vec Ideal S1x128 .f32) (x5 : Vec Ideal S128x1 .f32) (x6 : Vec Ideal S1x1 .f32) :
    k2_pay1 (k2_pay2 x0 x1 x2 x3 x4) (k2_pay3 x0 x1 x2 x3 x4) (k2_pay4 (F := Ideal)) x5 x6
      = Cert.Net.head (N := 2000) (K := 128) (B := 1) (K1 := 512) (K2 := 128) x0 x1 (Cert.Sage.rowOf x2) x3 (Cert.Sage.rowOf x4) x5 (Cert.Sage.rowOf x6) := by
  unfold k2_pay1 k2_pay3 k2_pay4
  simp only [shapeCast_self]
  rw [mid_eq, Cert.Net.tile_act]
  exact Cert.Net.tile_lin dot_S2000x128_S128x1_S2000x1_1_0_0_1_n_n (dot_S2000x128_S128x1_S2000x1_1_0_0_1_n_n).wf rfl _ x5 x6 _ _

/-- The stage's output as one function of the arrays the launch is entered with. -/
def G (c : Dev nD) : FVec Ideal S50000x1 .f32 :=
  Cert.Net.head (N := 50000) (K := 128) (B := 1) (K1 := 512) (K2 := 128) (V c main_v45 : FVec Ideal S50000x128 .f32)
    (V c main_arg8 : FVec Ideal S128x512 .f32) (Cert.Sage.rowOf (V c main_v46 : FVec Ideal S1x512 .f32))
    (V c main_arg10 : FVec Ideal S512x128 .f32) (Cert.Sage.rowOf (V c main_v47 : FVec Ideal S1x128 .f32))
    (V c main_arg12 : FVec Ideal S128x1 .f32) (Cert.Sage.rowOf (V c main_v48 : FVec Ideal S1x1 .f32))

/-- The printed index maps, decided over the grid: the row window moves with the output window, whose block index
    along the rows is below 25; the weights' and the biases' blocks stay at the origin. -/
theorem idx_facts : ∀ t : Fin cfg2.N, win2_0.index t (0 : Fin 2) = win2_7.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 24 :=
  (by decide +kernel : ∀ t : Fin grid2.N, _)

/-- Every band of 2000 rows is some point's block. -/
theorem idx_onto : ∀ q0 : Fin 25, ∃ t : Fin cfg2.N, win2_7.index t = ![q0.val, 0] :=
  (by decide +kernel : ∀ q0 : Fin 25, ∃ t : Fin grid2.N, win2_7.index t = ![q0.val, 0])

/-- The first weight matrix's block at any point is the whole array. -/
theorem w1_blk (c : Dev nD) (t : Fin cfg2.N) : (iblk2 V c 1 t : Vec Ideal S128x512 .f32) = (V c main_arg8 : FVec Ideal S128x512 .f32) := by
  obtain ⟨-, -, e0, e1, -⟩ := idx_facts t
  funext y
  show V c main_arg8 (((cfg2.win 1).blk t).view.emb y) = V c main_arg8 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 512 + 1 * (y 1).val = (y 1).val; omega

/-- The first bias row's block at any point is the whole array. -/
theorem w2_blk (c : Dev nD) (t : Fin cfg2.N) : (iblk2 V c 2 t : Vec Ideal S1x512 .f32) = (V c main_v46 : FVec Ideal S1x512 .f32) := by
  obtain ⟨-, -, -, -, e0, e1, -⟩ := idx_facts t
  funext y
  show V c main_v46 (((cfg2.win 2).blk t).view.emb y) = V c main_v46 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 512 + 1 * (y 1).val = (y 1).val; omega

/-- The second weight matrix's block at any point is the whole array. -/
theorem w3_blk (c : Dev nD) (t : Fin cfg2.N) : (iblk2 V c 3 t : Vec Ideal S512x128 .f32) = (V c main_arg10 : FVec Ideal S512x128 .f32) := by
  obtain ⟨-, -, -, -, -, -, e0, e1, -⟩ := idx_facts t
  funext y
  show V c main_arg10 (((cfg2.win 3).blk t).view.emb y) = V c main_arg10 y
  refine congrArg _ (funext fun a => Fin.ext ?_)
  match a with
  | ⟨0, _⟩ => show win2_3.index t (0 : Fin 2) * 512 + 1 * (y 0).val = (y 0).val; omega
  | ⟨1, _⟩ => show win2_3.index t (1 : Fin 2) * 128 + 1 * (y 1).val = (y 1).val; omega

/-- The second bias row's block at any point is the whole array. -/
theorem w4_blk (c : Dev nD) (t : Fin cfg2.N) : (iblk2 V c 4 t : Vec Ideal S1x128 .f32) = (V c main_v47 : FVec Ideal S1x128 .f32) := by
  obtain ⟨-, -, -, -, -, -, -, -, e0, e1, -⟩ := idx_facts t
  funext y
  show V c main_v47 (((cfg2.win 4).blk t).view.emb y) = V c main_v47 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The last weight column's block at any point is the whole array. -/
theorem w5_blk (c : Dev nD) (t : Fin cfg2.N) : (iblk2 V c 5 t : Vec Ideal S128x1 .f32) = (V c main_arg12 : FVec Ideal S128x1 .f32) := by
  obtain ⟨-, -, -, -, -, -, -, -, -, -, e0, e1, -⟩ := idx_facts t
  funext y
  show V c main_arg12 (((cfg2.win 5).blk t).view.emb y) = V c main_arg12 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 1 + 1 * (y 1).val = (y 1).val; omega

/-- The last bias's block at any point is the whole array. -/
theorem w6_blk (c : Dev nD) (t : Fin cfg2.N) : (iblk2 V c 6 t : Vec Ideal S1x1 .f32) = (V c main_v48 : FVec Ideal S1x1 .f32) := by
  obtain ⟨-, -, -, -, -, -, -, -, -, -, -, -, e0, e1, -⟩ := idx_facts t
  funext y
  show V c main_v48 (((cfg2.win 6).blk t).view.emb y) = V c main_v48 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- Row p of the input's block at point t is row `index·2000 + p` of the array. -/
theorem h_blk (c : Dev nD) (t : Fin cfg2.N) (p : Fin 2000) (k : Fin 128) (r : Fin 50000)
    (hr : r.val = win2_7.index t (0 : Fin 2) * 2000 + p.val) :
    (iblk2 V c 0 t : Vec Ideal S2000x128 .f32) (ix2 p k) = (V c main_v45 : FVec Ideal S50000x128 .f32) (ix2 r k) := by
  obtain ⟨e0, e1, -⟩ := idx_facts t
  show V c main_v45 (((cfg2.win 0).blk t).view.emb (ix2 p k)) = V c main_v45 (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Reading a block of the output through the window: if entry (p, u) of a tile `f` is entry (index·2000 + p, u) of a whole
    array `g`, then `f`, cut to the block, is block t of `g`. -/
theorem blk_read_eq (t : Fin cfg2.N) (f : Vec Ideal S2000x1 .f32) (g : FVec Ideal S50000x1 .f32)
    (h : ∀ (p : Fin 2000) (u : Fin 1) (r : Fin 50000), r.val = win2_7.index t (0 : Fin 2) * 2000 + p.val → f (ix2 p u) = g (ix2 r u)) :
    (cfg2.win 7).cut (grid2.coords t) f = ((cfg2.win 7).blk t).view.read (Elt Ideal) g := by
  obtain ⟨-, -, -, -, -, -, -, -, -, -, -, -, -, -, e71, e70⟩ := idx_facts t
  funext j
  have hj0 : (j 0).val < 2000 := (j 0).isLt
  have hj1 : (j 1).val < 1 := (j 1).isLt
  show f j = g (((cfg2.win 7).blk t).view.emb j)
  have ej : j = ix2 (⟨(j 0).val, hj0⟩ : Fin 2000) (⟨(j 1).val, hj1⟩ : Fin 1) := eq_ix2 (n0 := 2000) (n1 := 1) j
  have er : ((cfg2.win 7).blk t).view.emb j
      = ix2 (⟨win2_7.index t (0 : Fin 2) * 2000 + (j 0).val, by omega⟩ : Fin 50000) (⟨(j 1).val, hj1⟩ : Fin 1) := by
    funext a
    apply Fin.ext
    match a with
    | ⟨0, _⟩ => show win2_7.index t (0 : Fin 2) * 2000 + 1 * (j 0).val = win2_7.index t (0 : Fin 2) * 2000 + (j 0).val; omega
    | ⟨1, _⟩ => show win2_7.index t (1 : Fin 2) * 1 + 1 * (j 1).val = (j 1).val; omega
  exact (congrArg f ej).trans ((h ⟨(j 0).val, hj0⟩ ⟨(j 1).val, hj1⟩ ⟨win2_7.index t (0 : Fin 2) * 2000 + (j 0).val, by omega⟩ rfl).trans
    (congrArg g er.symm))

/-- Entry (p, u) of the head of the input's block at point t is entry (index·2000 + p, u) of `G`: the head's row depends
    on the same row of its input only. -/
theorem blk_entry (c : Dev nD) (t : Fin cfg2.N) (p : Fin 2000) (u : Fin 1) (r : Fin 50000)
    (hr : r.val = win2_7.index t (0 : Fin 2) * 2000 + p.val) :
    Cert.Net.head (N := 2000) (K := 128) (B := 1) (K1 := 512) (K2 := 128) (iblk2 V c 0 t : Vec Ideal S2000x128 .f32)
        (V c main_arg8 : FVec Ideal S128x512 .f32) (Cert.Sage.rowOf (V c main_v46 : FVec Ideal S1x512 .f32))
        (V c main_arg10 : FVec Ideal S512x128 .f32) (Cert.Sage.rowOf (V c main_v47 : FVec Ideal S1x128 .f32))
        (V c main_arg12 : FVec Ideal S128x1 .f32) (Cert.Sage.rowOf (V c main_v48 : FVec Ideal S1x1 .f32)) (ix2 p u)
      = G V c (ix2 r u) :=
  (Cert.Net.head_rowEq (V c main_v45 : FVec Ideal S50000x128 .f32) (iblk2 V c 0 t : Vec Ideal S2000x128 .f32) _ _ _ _ _ _ r p
    (fun k => (h_blk V c t p k r hr).symm) u).symm

/-- WHAT POINT t WRITES BACK is block t of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2000x128) hz, View.ld_unit_zero (S := S128x512) hz, View.ld_unit_zero (S := S1x512) hz,
    View.ld_unit_zero (S := S512x128) hz, View.ld_unit_zero (S := S1x128) hz, View.ld_unit_zero (S := S128x1) hz,
    View.ld_unit_zero (S := S1x1) hz]
  rw [pay_eq, w1_blk V c t, w2_blk V c t, w3_blk V c t, w4_blk V c t, w5_blk V c t, w6_blk V c t]
  exact blk_read_eq t _ (G V c) (fun p u r hr => blk_entry V c t p u r hr)

/-- An index of the output array is in point t's block iff each coordinate is in the block's range on its axis. -/
theorem mem_blk (t : Fin cfg2.N) (i : S50000x1.Idx) :
    i ∈ ((cfg2.win 7).blk t).view.set ↔ ∀ a : Fin 2, win2_7.index t a * S2000x1.size a ≤ (i a).val ∧ (i a).val < win2_7.index t a * S2000x1.size a + S2000x1.size a := by
  show i ∈ ((View.whole main_v49).slice (win2_7.rect t)).set ↔ _
  rw [View.set_slice_whole, Rect.mem_set_unit]
  exact Iff.rfl

/-- The 25 blocks cover the output array: row r is in the block of point r / 2000. -/
theorem cover (i : S50000x1.Idx) : ∃ t : Fin cfg2.N, (cfg2.win 7).flush t = true ∧ i ∈ ((cfg2.win 7).blk t).view.set := by
  have hi0 : (i 0).val < 50000 := (i 0).isLt
  have hi1 : (i 1).val < 1 := (i 1).isLt
  obtain ⟨t, ht⟩ := idx_onto ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 1 ≤ (i 1).val ∧ (i 1).val < win2_7.index t (1 : Fin 2) * 1 + 1; omega

/-- THE OUTPUT ARRAY after the launch is `G` of the arrays it was entered with. -/
theorem final (c : Dev nD) : (dat2 V c).arrAt 7 cfg2.N = G V c :=
  (dat2 V c).arrAt_eq_of_cover 7 (G V c) (fun t _ => flushed_eq V c t) (cover)

end Cert.KernelIdeal.Stage2

end
-- ==== Proof.Aggregate.lean ====
/-
  The neighbour-mean aggregation, named once.

  Both programs aggregate on the host with the same operations: the two rows of the edge array are the source and the
  destination words of the edges; a negative source word is shifted by the number of nodes; the feature rows at the
  source words are gathered and scatter-added into their destination rows; the number of edges into each node is
  scatter-added from ones, raised to at least one, and divides the summed rows.  Nothing here is opened: the two
  programs feed equal features and equal words to this one function, so its values are equal.
  The second half says that the reference's generated stages are this function of their operands.
-/
import proofs.«104102_j11493332484324_1_alg».proof.Proof.Gen.KernelIdeal
import proofs.«104102_j11493332484324_1_alg».proof.Proof.Gen.ReferenceIdeal.Read

noncomputable section

namespace Cert.Net

open Idealize.ShloMosaic Cert.KernelIdeal Cert.KernelIdeal.Gen

/-- The source words: row 0 of the edge array as a vector. -/
def src (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The destination words: row 1 of the edge array as a vector. -/
def dst (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The source words normalized (a negative word shifted by the number of nodes), as a one-column index array. -/
def srcColumn (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The number of edges into each node, at least one. -/
def count (d : (⟨S800000, .i32⟩ : BufTy).Contents (Elt Ideal)) : (⟨S50000, .f32⟩ : BufTy).Contents (Elt Ideal) :=
  maximumf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))
    (broadcastInDim S50000 ![] bcast_S_S50000 (constant (F := Ideal) S_ .f32 0x3F800000#32))

/-- The mean over incoming edges of rows of a feature array of width 256, as the host operations compute it: the rows
    at the normalized source words gathered, summed into their destination rows, and each row divided by its count. -/
def agg256 (h : (⟨S50000x256, .f32⟩ : BufTy).Contents (Elt Ideal)) (s d : (⟨S800000, .i32⟩ : BufTy).Contents (Elt Ideal)) :
    (⟨S50000x256, .f32⟩ : BufTy).Contents (Elt Ideal) :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather gather_S50000x256_S800000x1_S800000x256_1_0_n_n_0_1_1256 h (srcColumn s)))
    (broadcastInDim S50000x256 ![0, 1] bcast_S50000x1_S50000x256_0_1 (broadcastInDim S50000x1 ![0] bcast_S50000_S50000x1_0 (count d)))

/-- The mean over incoming edges of rows of a feature array of width 128, as the host operations compute it: the rows
    at the normalized source words gathered, summed into their destination rows, and each row divided by its count. -/
def agg128 (h : (⟨S50000x128, .f32⟩ : BufTy).Contents (Elt Ideal)) (s d : (⟨S800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 h (srcColumn s)))
    (broadcastInDim S50000x128 ![0, 1] bcast_S50000x1_S50000x128_0_1 (broadcastInDim S50000x1 ![0] bcast_S50000_S50000x1_0 (count d)))

/-! ## The reference's generated stages are these functions -/

section Reference

open Cert.ReferenceIdeal.Read

theorem ref_src (x1 : (⟨Cert.ReferenceIdeal.S2x800000, .i32⟩ : BufTy).Contents (Elt Ideal)) :
    val_main_v1 (F := Ideal) x1 = src x1 := rfl

theorem ref_dst (x1 : (⟨Cert.ReferenceIdeal.S2x800000, .i32⟩ : BufTy).Contents (Elt Ideal)) :
    val_main_v3 (F := Ideal) x1 = dst x1 := rfl

theorem ref_agg256 (x0 : (⟨Cert.ReferenceIdeal.S50000x256, .f32⟩ : BufTy).Contents (Elt Ideal))
    (x1 : (⟨Cert.ReferenceIdeal.S2x800000, .i32⟩ : BufTy).Contents (Elt Ideal)) :
    val_main_v22 (F := Ideal) x0 x1 = agg256 x0 (src x1) (dst x1) := rfl

theorem ref_agg128 (x0 : (⟨Cert.ReferenceIdeal.S50000x256, .f32⟩ : BufTy).Contents (Elt Ideal))
    (x1 : (⟨Cert.ReferenceIdeal.S2x800000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S256x128, .f32⟩ : BufTy).Contents (Elt Ideal)) :
    val_main_v48 (F := Ideal) x0 x1 x2 x3 x4 = agg128 (val_main_v29 (F := Ideal) x0 x1 x2 x3 x4) (src x1) (dst x1) := rfl

end Reference

end Cert.Net

end
-- ==== Proof.Reference.lean ====
/-
  The network as one function of its fourteen arguments, and the reference's run read as that function.

  `out` composes, on whole arrays: the first SAGE layer of the node features and their neighbour mean; the second
  SAGE layer of the first layer's output and ITS neighbour mean (over the same edge words); the head; and its one
  column read as a vector.  The reference's generated stages (one per host operation, each a function of @main's
  arguments) are read layer by layer: a layer's stages are unfolded down to the previous layer's last stage, which
  stays folded, and the operations between are one of the host spellings of LibRowLocalLayers.lean.
-/
import proofs.«104102_j11493332484324_1_alg».proof.Proof.Aggregate
import proofs.«104102_j11493332484324_1_alg».proof.Proof.LibRowLocalLayers

set_option maxRecDepth 16384

noncomputable section

namespace Cert.Net

open Idealize.ShloMosaic Cert.KernelIdeal

/-- The first SAGE layer's output. -/
def layer1 (x0 : FVec Ideal S50000x256 .f32) (ei : (⟨S2x800000, .i32⟩ : BufTy).Contents (Elt Ideal))
    (wl wr : FVec Ideal S256x128 .f32) (b : FVec Ideal S128 .f32) : FVec Ideal S50000x128 .f32 :=
  Cert.Sage.hidden (N := 50000) (K := 256) (B := 128) (agg256 x0 (src ei) (dst ei)) x0 wl wr b

/-- The second SAGE layer's output, from the first's. -/
def layer2 (h : FVec Ideal S50000x128 .f32) (ei : (⟨S2x800000, .i32⟩ : BufTy).Contents (Elt Ideal))
    (wl wr : FVec Ideal S128x128 .f32) (b : FVec Ideal S128 .f32) : FVec Ideal S50000x128 .f32 :=
  Cert.Sage.hidden (N := 50000) (K := 128) (B := 128) (agg128 h (src ei) (dst ei)) h wl wr b

/-- The network's result. -/
def out (x0 : FVec Ideal S50000x256 .f32) (x1 : (⟨S2x800000, .i32⟩ : BufTy).Contents (Elt Ideal))
    (x2 : FVec Ideal S256x128 .f32) (x3 : FVec Ideal S128 .f32) (x4 : FVec Ideal S256x128 .f32)
    (x5 : FVec Ideal S128x128 .f32) (x6 : FVec Ideal S128 .f32) (x7 : FVec Ideal S128x128 .f32)
    (x8 : FVec Ideal S128x512 .f32) (x9 : FVec Ideal S512 .f32) (x10 : FVec Ideal S512x128 .f32) (x11 : FVec Ideal S128 .f32)
    (x12 : FVec Ideal S128x1 .f32) (x13 : FVec Ideal S1 .f32) : FVec Ideal S50000 .f32 :=
  column (N := 50000) (head (N := 50000) (K := 128) (B := 1) (K1 := 512) (K2 := 128)
    (layer2 (layer1 x0 x1 x2 x4 x3) x1 x5 x7 x6) x8 x9 x10 x11 x12 x13)

/-! ## The reference's stages -/

section Reference

open Cert.ReferenceIdeal Cert.ReferenceIdeal.Gen Cert.ReferenceIdeal.Read

/-- Stage %29: the first SAGE layer. -/
theorem ref_layer1 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) :
    val_main_v29 (F := Ideal) x0 x1 x2 x3 x4 = layer1 x0 x1 x2 x4 x3 := by
  unfold val_main_v29 val_main_v28 val_main_v27 val_main_v26 val_main_v25 val_main_v24 val_main_v23 val_main_call0_v0 val_main_call0_cst
  rw [ref_agg256]
  exact host_hidden Cert.ReferenceIdeal.dot_S50000x256_S256x128_S50000x128_1_0_0_1_n_n
    (Cert.ReferenceIdeal.dot_S50000x256_S256x128_S50000x128_1_0_0_1_n_n).wf rfl _ x0 x2 x4 x3 _ _ _

/-- Stage %55: the second SAGE layer, of stage %29. -/
theorem ref_layer2 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) :
    val_main_v55 (F := Ideal) x0 x1 x2 x3 x4 x5 x6 x7 = layer2 (val_main_v29 (F := Ideal) x0 x1 x2 x3 x4) x1 x5 x7 x6 := by
  unfold val_main_v55 val_main_v54 val_main_v53 val_main_v52 val_main_v51 val_main_v50 val_main_v49 val_main_call1_v0 val_main_call1_cst
  rw [ref_agg128]
  exact host_hidden Cert.ReferenceIdeal.dot_S50000x128_S128x128_S50000x128_1_0_0_1_n_n
    (Cert.ReferenceIdeal.dot_S50000x128_S128x128_S50000x128_1_0_0_1_n_n).wf rfl _ _ x5 x7 x6 _ _ _

/-- Stage %59: the head's first dense layer, of stage %55. -/
theorem ref_lin1 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x512, .f32⟩ : BufTy).Contents (Elt Ideal)) (x9 : (⟨Cert.ReferenceIdeal.S512, .f32⟩ : BufTy).Contents (Elt Ideal)) :
    val_main_v59 (F := Ideal) x0 x1 x2 x3 x4 x5 x6 x7 x8 x9 = lin (N := 50000) (K := 128) (B := 512) (val_main_v55 (F := Ideal) x0 x1 x2 x3 x4 x5 x6 x7) x8 x9 := by
  unfold val_main_v59 val_main_v58 val_main_v57 val_main_v56
  exact host_lin Cert.ReferenceIdeal.dot_S50000x128_S128x512_S50000x512_1_0_0_1_n_n
    (Cert.ReferenceIdeal.dot_S50000x128_S128x512_S50000x512_1_0_0_1_n_n).wf rfl _ x8 x9 _ _

/-- Stage %72: the unit over stage %59. -/
theorem ref_act1 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x512, .f32⟩ : BufTy).Contents (Elt Ideal)) (x9 : (⟨Cert.ReferenceIdeal.S512, .f32⟩ : BufTy).Contents (Elt Ideal)) :
    val_main_v72 (F := Ideal) x0 x1 x2 x3 x4 x5 x6 x7 x8 x9 = act (val_main_v59 (F := Ideal) x0 x1 x2 x3 x4 x5 x6 x7 x8 x9) := by
  unfold val_main_v72 val_main_v71 val_main_v70 val_main_v69 val_main_v68 val_main_v67 val_main_v66 val_main_v65 val_main_v64
    val_main_v63 val_main_v62 val_main_v61 val_main_v60 val_main_cst_13 val_main_cst_12 val_main_cst_11 val_main_cst_10
  exact host_act _ _

/-- Stage %76: the head's second dense layer, of stage %72. -/
theorem ref_lin2 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x512, .f32⟩ : BufTy).Contents (Elt Ideal)) (x9 : (⟨Cert.ReferenceIdeal.S512, .f32⟩ : BufTy).Contents (Elt Ideal)) (x10 : (⟨Cert.ReferenceIdeal.S512x128, .f32⟩ : BufTy).Contents (Elt Ideal)) (x11 : (⟨Cert.ReferenceIdeal.S128, .f32⟩ : BufTy).Contents (Elt Ideal)) :
    val_main_v76 (F := Ideal) x0 x1 x2 x3 x4 x5 x6 x7 x8 x9 x10 x11 = lin (N := 50000) (K := 512) (B := 128) (val_main_v72 (F := Ideal) x0 x1 x2 x3 x4 x5 x6 x7 x8 x9) x10 x11 := by
  unfold val_main_v76 val_main_v75 val_main_v74 val_main_v73
  exact host_lin Cert.ReferenceIdeal.dot_S50000x512_S512x128_S50000x128_1_0_0_1_n_n
    (Cert.ReferenceIdeal.dot_S50000x512_S512x128_S50000x128_1_0_0_1_n_n).wf rfl _ x10 x11 _ _

/-- Stage %89: the unit over stage %76. -/
theorem ref_act2 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x512, .f32⟩ : BufTy).Contents (Elt Ideal)) (x9 : (⟨Cert.ReferenceIdeal.S512, .f32⟩ : BufTy).Contents (Elt Ideal)) (x10 : (⟨Cert.ReferenceIdeal.S512x128, .f32⟩ : BufTy).Contents (Elt Ideal)) (x11 : (⟨Cert.ReferenceIdeal.S128, .f32⟩ : BufTy).Contents (Elt Ideal)) :
    val_main_v89 (F := Ideal) x0 x1 x2 x3 x4 x5 x6 x7 x8 x9 x10 x11 = act (val_main_v76 (F := Ideal) x0 x1 x2 x3 x4 x5 x6 x7 x8 x9 x10 x11) := by
  unfold val_main_v89 val_main_v88 val_main_v87 val_main_v86 val_main_v85 val_main_v84 val_main_v83 val_main_v82 val_main_v81
    val_main_v80 val_main_v79 val_main_v78 val_main_v77 val_main_cst_17 val_main_cst_16 val_main_cst_15 val_main_cst_14
  exact host_act _ _

/-- Stage %93: the head's last dense layer, of stage %89. -/
theorem ref_lin3 (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x512, .f32⟩ : BufTy).Contents (Elt Ideal)) (x9 : (⟨Cert.ReferenceIdeal.S512, .f32⟩ : BufTy).Contents (Elt Ideal)) (x10 : (⟨Cert.ReferenceIdeal.S512x128, .f32⟩ : BufTy).Contents (Elt Ideal)) (x11 : (⟨Cert.ReferenceIdeal.S128, .f32⟩ : BufTy).Contents (Elt Ideal)) (x12 : (⟨Cert.ReferenceIdeal.S128x1, .f32⟩ : BufTy).Contents (Elt Ideal)) (x13 : (⟨Cert.ReferenceIdeal.S1, .f32⟩ : BufTy).Contents (Elt Ideal)) :
    val_main_v93 (F := Ideal) x0 x1 x2 x3 x4 x5 x6 x7 x8 x9 x10 x11 x12 x13 = lin (N := 50000) (K := 128) (B := 1) (val_main_v89 (F := Ideal) x0 x1 x2 x3 x4 x5 x6 x7 x8 x9 x10 x11) x12 x13 := by
  unfold val_main_v93 val_main_v92 val_main_v91 val_main_v90
  exact host_lin Cert.ReferenceIdeal.dot_S50000x128_S128x1_S50000x1_1_0_0_1_n_n
    (Cert.ReferenceIdeal.dot_S50000x128_S128x1_S50000x1_1_0_0_1_n_n).wf rfl _ x12 x13 _ _

/-- The reference's result is `out` of its arguments. -/
theorem ref_out (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S256x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x512, .f32⟩ : BufTy).Contents (Elt Ideal)) (x9 : (⟨Cert.ReferenceIdeal.S512, .f32⟩ : BufTy).Contents (Elt Ideal)) (x10 : (⟨Cert.ReferenceIdeal.S512x128, .f32⟩ : BufTy).Contents (Elt Ideal)) (x11 : (⟨Cert.ReferenceIdeal.S128, .f32⟩ : BufTy).Contents (Elt Ideal)) (x12 : (⟨Cert.ReferenceIdeal.S128x1, .f32⟩ : BufTy).Contents (Elt Ideal)) (x13 : (⟨Cert.ReferenceIdeal.S1, .f32⟩ : BufTy).Contents (Elt Ideal)) :
    val_main_v94 (F := Ideal) x0 x1 x2 x3 x4 x5 x6 x7 x8 x9 x10 x11 x12 x13 = out x0 x1 x2 x3 x4 x5 x6 x7 x8 x9 x10 x11 x12 x13 := by
  unfold val_main_v94
  rw [cast_column, ref_lin3, ref_act2, ref_lin2, ref_act1, ref_lin1, ref_layer2, ref_layer1]
  rfl

end Reference

end Cert.Net

end
-- ==== Proof.KernelFold.lean ====
/-
  The idealized kernel program's result, traced through the seven segments.

  The generated frame module names the TensorCore's buffer contents at the boundaries between the segments, `W0` (the
  launch memory) to `W7`.  A host stretch's boundary is read operation by operation; a launch's boundary holds, at
  its output array, the stage's function of the contents it was entered with (Stage0 / Stage1 / Stage2) and elsewhere
  what was there.  Read from the last boundary backwards, the result buffer holds the last reshape of the head's
  column, the head's input the second SAGE layer's output, that layer's aggregated input the neighbour mean of the
  first layer's output over the source and destination words cut from the edge array before the first launch, and
  so on down to the launch memory: `Net.out` of the fourteen argument arrays.
-/
import proofs.«104102_j11493332484324_1_alg».proof.Proof.Stage0
import proofs.«104102_j11493332484324_1_alg».proof.Proof.Stage1
import proofs.«104102_j11493332484324_1_alg».proof.Proof.Stage2
import proofs.«104102_j11493332484324_1_alg».proof.Proof.Reference
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.GenP Cert.Net

variable (m : (ℓ : Loc nD τ sig) → Buf (Elt Ideal) ℓ) (ρ : Dev nD → PrngReg) (c : Dev nD)

/-! ## The argument arrays are never written: at every boundary they hold their launch contents -/

theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg7 : W1 m ρ c (Proc.devRef .tc main_arg7) = (m ((c : Thread nD τ).loc main_arg7)) := by
  show StableHlo.after hostOps0 (W0 m ρ c) (Proc.devRef .tc main_arg7) = _
  after_results_simp <;> rfl
theorem W1_arg8 : W1 m ρ c (Proc.devRef .tc main_arg8) = (m ((c : Thread nD τ).loc main_arg8)) := by
  show StableHlo.after hostOps0 (W0 m ρ c) (Proc.devRef .tc main_arg8) = _
  after_results_simp <;> rfl
theorem W1_arg9 : W1 m ρ c (Proc.devRef .tc main_arg9) = (m ((c : Thread nD τ).loc main_arg9)) := by
  show StableHlo.after hostOps0 (W0 m ρ c) (Proc.devRef .tc main_arg9) = _
  after_results_simp <;> rfl
theorem W1_arg10 : W1 m ρ c (Proc.devRef .tc main_arg10) = (m ((c : Thread nD τ).loc main_arg10)) := by
  show StableHlo.after hostOps0 (W0 m ρ c) (Proc.devRef .tc main_arg10) = _
  after_results_simp <;> rfl
theorem W1_arg11 : W1 m ρ c (Proc.devRef .tc main_arg11) = (m ((c : Thread nD τ).loc main_arg11)) := by
  show StableHlo.after hostOps0 (W0 m ρ c) (Proc.devRef .tc main_arg11) = _
  after_results_simp <;> rfl
theorem W1_arg12 : W1 m ρ c (Proc.devRef .tc main_arg12) = (m ((c : Thread nD τ).loc main_arg12)) := by
  show StableHlo.after hostOps0 (W0 m ρ c) (Proc.devRef .tc main_arg12) = _
  after_results_simp <;> rfl
theorem W1_arg13 : W1 m ρ c (Proc.devRef .tc main_arg13) = (m ((c : Thread nD τ).loc main_arg13)) := by
  show StableHlo.after hostOps0 (W0 m ρ c) (Proc.devRef .tc main_arg13) = _
  after_results_simp <;> rfl
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W2_arg13 : W2 m ρ c (Proc.devRef .tc main_arg13) = (m ((c : Thread nD τ).loc main_arg13)) :=
  (W2_of_ne m ρ c main_arg13 (by decide)).trans (W1_arg13 m ρ c)
theorem W3_arg5 : W3 m ρ c (Proc.devRef .tc main_arg5) = (m ((c : Thread nD τ).loc main_arg5)) := by
  show StableHlo.after hostOps1 (W2 m ρ c) (Proc.devRef .tc main_arg5) = _
  after_results_simp <;> first | exact W2_arg5 m ρ c | rfl
theorem W3_arg6 : W3 m ρ c (Proc.devRef .tc main_arg6) = (m ((c : Thread nD τ).loc main_arg6)) := by
  show StableHlo.after hostOps1 (W2 m ρ c) (Proc.devRef .tc main_arg6) = _
  after_results_simp <;> first | exact W2_arg6 m ρ c | rfl
theorem W3_arg7 : W3 m ρ c (Proc.devRef .tc main_arg7) = (m ((c : Thread nD τ).loc main_arg7)) := by
  show StableHlo.after hostOps1 (W2 m ρ c) (Proc.devRef .tc main_arg7) = _
  after_results_simp <;> first | exact W2_arg7 m ρ c | rfl
theorem W3_arg8 : W3 m ρ c (Proc.devRef .tc main_arg8) = (m ((c : Thread nD τ).loc main_arg8)) := by
  show StableHlo.after hostOps1 (W2 m ρ c) (Proc.devRef .tc main_arg8) = _
  after_results_simp <;> first | exact W2_arg8 m ρ c | rfl
theorem W3_arg9 : W3 m ρ c (Proc.devRef .tc main_arg9) = (m ((c : Thread nD τ).loc main_arg9)) := by
  show StableHlo.after hostOps1 (W2 m ρ c) (Proc.devRef .tc main_arg9) = _
  after_results_simp <;> first | exact W2_arg9 m ρ c | rfl
theorem W3_arg10 : W3 m ρ c (Proc.devRef .tc main_arg10) = (m ((c : Thread nD τ).loc main_arg10)) := by
  show StableHlo.after hostOps1 (W2 m ρ c) (Proc.devRef .tc main_arg10) = _
  after_results_simp <;> first | exact W2_arg10 m ρ c | rfl
theorem W3_arg11 : W3 m ρ c (Proc.devRef .tc main_arg11) = (m ((c : Thread nD τ).loc main_arg11)) := by
  show StableHlo.after hostOps1 (W2 m ρ c) (Proc.devRef .tc main_arg11) = _
  after_results_simp <;> first | exact W2_arg11 m ρ c | rfl
theorem W3_arg12 : W3 m ρ c (Proc.devRef .tc main_arg12) = (m ((c : Thread nD τ).loc main_arg12)) := by
  show StableHlo.after hostOps1 (W2 m ρ c) (Proc.devRef .tc main_arg12) = _
  after_results_simp <;> first | exact W2_arg12 m ρ c | rfl
theorem W3_arg13 : W3 m ρ c (Proc.devRef .tc main_arg13) = (m ((c : Thread nD τ).loc main_arg13)) := by
  show StableHlo.after hostOps1 (W2 m ρ c) (Proc.devRef .tc main_arg13) = _
  after_results_simp <;> first | exact W2_arg13 m ρ c | rfl
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W4_arg13 : W4 m ρ c (Proc.devRef .tc main_arg13) = (m ((c : Thread nD τ).loc main_arg13)) :=
  (W4_of_ne m ρ c main_arg13 (by decide)).trans (W3_arg13 m ρ c)
theorem W5_arg8 : W5 m ρ c (Proc.devRef .tc main_arg8) = (m ((c : Thread nD τ).loc main_arg8)) := by
  show StableHlo.after hostOps2 (W4 m ρ c) (Proc.devRef .tc main_arg8) = _
  after_results_simp <;> first | exact W4_arg8 m ρ c | rfl
theorem W5_arg9 : W5 m ρ c (Proc.devRef .tc main_arg9) = (m ((c : Thread nD τ).loc main_arg9)) := by
  show StableHlo.after hostOps2 (W4 m ρ c) (Proc.devRef .tc main_arg9) = _
  after_results_simp <;> first | exact W4_arg9 m ρ c | rfl
theorem W5_arg10 : W5 m ρ c (Proc.devRef .tc main_arg10) = (m ((c : Thread nD τ).loc main_arg10)) := by
  show StableHlo.after hostOps2 (W4 m ρ c) (Proc.devRef .tc main_arg10) = _
  after_results_simp <;> first | exact W4_arg10 m ρ c | rfl
theorem W5_arg11 : W5 m ρ c (Proc.devRef .tc main_arg11) = (m ((c : Thread nD τ).loc main_arg11)) := by
  show StableHlo.after hostOps2 (W4 m ρ c) (Proc.devRef .tc main_arg11) = _
  after_results_simp <;> first | exact W4_arg11 m ρ c | rfl
theorem W5_arg12 : W5 m ρ c (Proc.devRef .tc main_arg12) = (m ((c : Thread nD τ).loc main_arg12)) := by
  show StableHlo.after hostOps2 (W4 m ρ c) (Proc.devRef .tc main_arg12) = _
  after_results_simp <;> first | exact W4_arg12 m ρ c | rfl
theorem W5_arg13 : W5 m ρ c (Proc.devRef .tc main_arg13) = (m ((c : Thread nD τ).loc main_arg13)) := by
  show StableHlo.after hostOps2 (W4 m ρ c) (Proc.devRef .tc main_arg13) = _
  after_results_simp <;> first | exact W4_arg13 m ρ c | rfl

/-! ## Before the first launch -/

/-- The source words, cut from the edge array. -/
theorem W1_v1 : W1 m ρ c (Proc.devRef .tc main_v1) = src (m ((c : Thread nD τ).loc main_arg1)) := by
  show StableHlo.after hostOps0 (W0 m ρ c) (Proc.devRef .tc main_v1) = _
  after_results_simp <;> rfl

/-- The destination words. -/
theorem W1_v3 : W1 m ρ c (Proc.devRef .tc main_v3) = dst (m ((c : Thread nD τ).loc main_arg1)) := by
  show StableHlo.after hostOps0 (W0 m ρ c) (Proc.devRef .tc main_v3) = _
  after_results_simp <;> rfl

/-- The node features' neighbour mean. -/
theorem V1_v22 : V1 m ρ c main_v22 = agg256 (m ((c : Thread nD τ).loc main_arg0)) (src (m ((c : Thread nD τ).loc main_arg1))) (dst (m ((c : Thread nD τ).loc main_arg1))) := by
  show StableHlo.after hostOps0 (W0 m ρ c) (Proc.devRef .tc main_v22) = _
  after_results_simp <;> rfl

/-- The first bias as a one-row matrix. -/
theorem V1_v23 : V1 m ρ c main_v23 = shapeCast S1x128 (m ((c : Thread nD τ).loc main_arg3)) shapeCasts_S128_S1x128 := by
  show StableHlo.after hostOps0 (W0 m ρ c) (Proc.devRef .tc main_v23) = _
  after_results_simp <;> rfl

/-! ## The first launch -/

/-- After the first launch its output array holds the first SAGE layer of the arguments. -/
theorem W2_v24 : W2 m ρ c (Proc.devRef .tc main_v24) = layer1 (m ((c : Thread nD τ).loc main_arg0)) (m ((c : Thread nD τ).loc main_arg1)) (m ((c : Thread nD τ).loc main_arg2)) (m ((c : Thread nD τ).loc main_arg4)) (m ((c : Thread nD τ).loc main_arg3)) := by
  refine (W2_arr m ρ c 5).trans ((Cert.KernelIdeal.Stage0.final (V1 m ρ) c).trans ?_)
  unfold Cert.KernelIdeal.Stage0.G
  rw [V1_v22 m ρ c, V1_v23 m ρ c, rowOf_cast,
    show V1 m ρ c main_arg0 = (m ((c : Thread nD τ).loc main_arg0)) from W1_arg0 m ρ c, show V1 m ρ c main_arg2 = (m ((c : Thread nD τ).loc main_arg2)) from W1_arg2 m ρ c,
    show V1 m ρ c main_arg4 = (m ((c : Thread nD τ).loc main_arg4)) from W1_arg4 m ρ c]
  rfl

theorem W2_v1 : W2 m ρ c (Proc.devRef .tc main_v1) = src (m ((c : Thread nD τ).loc main_arg1)) :=
  (W2_of_ne m ρ c main_v1 (by decide)).trans (W1_v1 m ρ c)

theorem W2_v3 : W2 m ρ c (Proc.devRef .tc main_v3) = dst (m ((c : Thread nD τ).loc main_arg1)) :=
  (W2_of_ne m ρ c main_v3 (by decide)).trans (W1_v3 m ρ c)

/-! ## Between the first and the second launch -/

/-- The first layer's output is not written by the host stretch. -/
theorem V3_v24 : V3 m ρ c main_v24 = layer1 (m ((c : Thread nD τ).loc main_arg0)) (m ((c : Thread nD τ).loc main_arg1)) (m ((c : Thread nD τ).loc main_arg2)) (m ((c : Thread nD τ).loc main_arg4)) (m ((c : Thread nD τ).loc main_arg3)) := by
  show StableHlo.after hostOps1 (W2 m ρ c) (Proc.devRef .tc main_v24) = _
  after_results_simp <;> first | exact W2_v24 m ρ c | rfl

/-- Its neighbour mean, over the same words. -/
theorem V3_v43 : V3 m ρ c main_v43 = agg128 (layer1 (m ((c : Thread nD τ).loc main_arg0)) (m ((c : Thread nD τ).loc main_arg1)) (m ((c : Thread nD τ).loc main_arg2)) (m ((c : Thread nD τ).loc main_arg4)) (m ((c : Thread nD τ).loc main_arg3))) (src (m ((c : Thread nD τ).loc main_arg1))) (dst (m ((c : Thread nD τ).loc main_arg1))) := by
  have e : V3 m ρ c main_v43 = agg128 (W2 m ρ c (Proc.devRef .tc main_v24)) (W2 m ρ c (Proc.devRef .tc main_v1)) (W2 m ρ c (Proc.devRef .tc main_v3)) := by
    show StableHlo.after hostOps1 (W2 m ρ c) (Proc.devRef .tc main_v43) = _
    after_results_simp <;> rfl
  rw [e, W2_v24 m ρ c, W2_v1 m ρ c, W2_v3 m ρ c]

/-- The second bias as a one-row matrix. -/
theorem V3_v44 : V3 m ρ c main_v44 = shapeCast S1x128 (m ((c : Thread nD τ).loc main_arg6)) shapeCasts_S128_S1x128 := by
  have e : V3 m ρ c main_v44 = shapeCast S1x128 (W2 m ρ c (Proc.devRef .tc main_arg6)) shapeCasts_S128_S1x128 := by
    show StableHlo.after hostOps1 (W2 m ρ c) (Proc.devRef .tc main_v44) = _
    after_results_simp <;> rfl
  rw [e, W2_arg6 m ρ c]

/-! ## The second launch -/

/-- After the second launch its output array holds the second SAGE layer of the first's output. -/
theorem W4_v45 : W4 m ρ c (Proc.devRef .tc main_v45)
    = layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6)) := by
  refine (W4_arr m ρ c 5).trans ((Cert.KernelIdeal.Stage1.final (V3 m ρ) c).trans ?_)
  unfold Cert.KernelIdeal.Stage1.G
  rw [V3_v43 m ρ c, V3_v24 m ρ c, V3_v44 m ρ c, rowOf_cast,
    show V3 m ρ c main_arg5 = (m ((c : Thread nD τ).loc main_arg5)) from W3_arg5 m ρ c, show V3 m ρ c main_arg7 = (m ((c : Thread nD τ).loc main_arg7)) from W3_arg7 m ρ c]
  rfl

/-! ## Between the second and the third launch -/

theorem V5_v45 : V5 m ρ c main_v45 = layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6)) := by
  show StableHlo.after hostOps2 (W4 m ρ c) (Proc.devRef .tc main_v45) = _
  after_results_simp <;> first | exact W4_v45 m ρ c | rfl

theorem V5_v46 : V5 m ρ c main_v46 = shapeCast S1x512 (m ((c : Thread nD τ).loc main_arg9)) shapeCasts_S512_S1x512 := by
  have e : V5 m ρ c main_v46 = shapeCast S1x512 (W4 m ρ c (Proc.devRef .tc main_arg9)) shapeCasts_S512_S1x512 := by
    show StableHlo.after hostOps2 (W4 m ρ c) (Proc.devRef .tc main_v46) = _
    after_results_simp <;> rfl
  rw [e, W4_arg9 m ρ c]

theorem V5_v47 : V5 m ρ c main_v47 = shapeCast S1x128 (m ((c : Thread nD τ).loc main_arg11)) shapeCasts_S128_S1x128 := by
  have e : V5 m ρ c main_v47 = shapeCast S1x128 (W4 m ρ c (Proc.devRef .tc main_arg11)) shapeCasts_S128_S1x128 := by
    show StableHlo.after hostOps2 (W4 m ρ c) (Proc.devRef .tc main_v47) = _
    after_results_simp <;> rfl
  rw [e, W4_arg11 m ρ c]

theorem V5_v48 : V5 m ρ c main_v48 = shapeCast S1x1 (m ((c : Thread nD τ).loc main_arg13)) shapeCasts_S1_S1x1 := by
  have e : V5 m ρ c main_v48 = shapeCast S1x1 (W4 m ρ c (Proc.devRef .tc main_arg13)) shapeCasts_S1_S1x1 := by
    show StableHlo.after hostOps2 (W4 m ρ c) (Proc.devRef .tc main_v48) = _
    after_results_simp <;> rfl
  rw [e, W4_arg13 m ρ c]

/-! ## The third launch and the last reshape -/

/-- After the third launch its output array holds the head of the second layer's output. -/
theorem W6_v49 : W6 m ρ c (Proc.devRef .tc main_v49)
    = head (N := 50000) (K := 128) (B := 1) (K1 := 512) (K2 := 128)
        (layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6)))
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 7).trans ((Cert.KernelIdeal.Stage2.final (V5 m ρ) c).trans ?_)
  unfold Cert.KernelIdeal.Stage2.G
  rw [V5_v45 m ρ c, V5_v46 m ρ c, V5_v47 m ρ c, V5_v48 m ρ c, rowOf_cast, rowOf_cast, rowOf_cast,
    show V5 m ρ c main_arg8 = (m ((c : Thread nD τ).loc main_arg8)) from W5_arg8 m ρ c, show V5 m ρ c main_arg10 = (m ((c : Thread nD τ).loc main_arg10)) from W5_arg10 m ρ c,
    show V5 m ρ c main_arg12 = (m ((c : Thread nD τ).loc main_arg12)) from W5_arg12 m ρ c]

/-- THE RESULT BUFFER at the last boundary is `Net.out` of the argument arrays. -/
theorem result : W7 m ρ c (Proc.devRef .tc main_v50)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e : W7 m ρ c (Proc.devRef .tc main_v50) = shapeCast S50000 (W6 m ρ c (Proc.devRef .tc main_v49)) shapeCasts_S50000x1_S50000 := by
    show StableHlo.after hostOps3 (W6 m ρ c) (Proc.devRef .tc main_v50) = _
    after_results_simp <;> rfl
  rw [e, W6_v49 m ρ c, cast_column]
  rfl

end Cert.KernelIdeal.Fold

end
-- ==== Proof.lean ====
/-
  The proof of `Cert.Claim` for a two-layer graph-SAGE network with a dense head.

  Both programs compute, from node features x, an edge array, and eleven weight and bias arrays,

      h₁ = max(mean_nbr(x)·Wl₁ + x·Wr₁ + b₁, 0),   h₂ = max(mean_nbr(h₁)·Wl₂ + h₁·Wr₂ + b₂, 0),
      out = (gelu(gelu(h₂·Wk₁ + bk₁)·Wk₂ + bk₂)·Wc + bc)[:, 0],

  where mean_nbr is the mean over incoming edges (gather, scatter-add, division by the count raised to at least one),
  computed on the host by the same operations in both.  The kernel program computes each of the three dense stages in
  a launch over 25 tiles of 2000 rows, with its matrix products on values rounded to a narrower float format (the
  identity on the extended reals); the reference computes them on whole arrays.  Every dense stage's row depends only
  on the same row of its row-wise input, so a tile's result is the same rows of the whole-array stage (Stage0, Stage1,
  Stage2), and the program's buffers, followed from segment to segment (KernelFold), end at `Net.out` of the
  arguments.  The reference's stages are read as the same `Net.out` (Reference).  The two spellings differ by the
  order of three summands in a SAGE layer and of the factors of a cube: sums and products of extended reals are
  commutative and associative, so the precondition (finite inputs) is not used.  The frames are the generated frame
  certificates (the reference's its generated run with the result dropped); the idealization rewrote nothing.
-/
import proofs.«104102_j11493332484324_1_alg».proof.Defs
import proofs.«104102_j11493332484324_1_alg».proof.Proof.Gen.Kernel
import proofs.«104102_j11493332484324_1_alg».proof.Proof.Gen.KernelIdeal
import proofs.«104102_j11493332484324_1_alg».proof.Proof.Gen.ReferenceIdeal
import proofs.«104102_j11493332484324_1_alg».proof.Proof.Gen.Pre_finite_inputs
import proofs.«104102_j11493332484324_1_alg».proof.Proof.Gen.ReferenceIdeal.Run
import proofs.«104102_j11493332484324_1_alg».proof.Proof.Gen.ReferenceIdeal.Read
import proofs.«104102_j11493332484324_1_alg».proof.Proof.PatchedKernelFrame
import proofs.«104102_j11493332484324_1_alg».proof.Proof.PatchedKernelIdealFrame
import proofs.«104102_j11493332484324_1_alg».proof.Proof.KernelRun
import proofs.«104102_j11493332484324_1_alg».proof.Proof.KernelFold
import proofs.«104102_j11493332484324_1_alg».proof.Proof.Reference
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `Net.out` of the argument arrays in their result buffers. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono (fun r h c =>
      ⟨(h c _ (Cert.KernelIdeal.GenP.mem_uc Cert.KernelIdeal.main_v50 (by decide))).trans (Cert.KernelIdeal.Fold.result m ρ c),
       (h c _ (Cert.KernelIdeal.GenP.mem_uc Cert.KernelIdeal.main_arg0 (by decide))).trans (Cert.KernelIdeal.GenP.W7_main_arg0 m ρ c),
       (h c _ (Cert.KernelIdeal.GenP.mem_uc Cert.KernelIdeal.main_arg1 (by decide))).trans (Cert.KernelIdeal.GenP.W7_main_arg1 m ρ c),
       (h c _ (Cert.KernelIdeal.GenP.mem_uc Cert.KernelIdeal.main_arg2 (by decide))).trans (Cert.KernelIdeal.GenP.W7_main_arg2 m ρ c),
       (h c _ (Cert.KernelIdeal.GenP.mem_uc Cert.KernelIdeal.main_arg3 (by decide))).trans (Cert.KernelIdeal.GenP.W7_main_arg3 m ρ c),
       (h c _ (Cert.KernelIdeal.GenP.mem_uc Cert.KernelIdeal.main_arg4 (by decide))).trans (Cert.KernelIdeal.GenP.W7_main_arg4 m ρ c),
       (h c _ (Cert.KernelIdeal.GenP.mem_uc Cert.KernelIdeal.main_arg5 (by decide))).trans (Cert.KernelIdeal.GenP.W7_main_arg5 m ρ c),
       (h c _ (Cert.KernelIdeal.GenP.mem_uc Cert.KernelIdeal.main_arg6 (by decide))).trans (Cert.KernelIdeal.GenP.W7_main_arg6 m ρ c),
       (h c _ (Cert.KernelIdeal.GenP.mem_uc Cert.KernelIdeal.main_arg7 (by decide))).trans (Cert.KernelIdeal.GenP.W7_main_arg7 m ρ c),
       (h c _ (Cert.KernelIdeal.GenP.mem_uc Cert.KernelIdeal.main_arg8 (by decide))).trans (Cert.KernelIdeal.GenP.W7_main_arg8 m ρ c),
       (h c _ (Cert.KernelIdeal.GenP.mem_uc Cert.KernelIdeal.main_arg9 (by decide))).trans (Cert.KernelIdeal.GenP.W7_main_arg9 m ρ c),
       (h c _ (Cert.KernelIdeal.GenP.mem_uc Cert.KernelIdeal.main_arg10 (by decide))).trans (Cert.KernelIdeal.GenP.W7_main_arg10 m ρ c),
       (h c _ (Cert.KernelIdeal.GenP.mem_uc Cert.KernelIdeal.main_arg11 (by decide))).trans (Cert.KernelIdeal.GenP.W7_main_arg11 m ρ c),
       (h c _ (Cert.KernelIdeal.GenP.mem_uc Cert.KernelIdeal.main_arg12 (by decide))).trans (Cert.KernelIdeal.GenP.W7_main_arg12 m ρ c),
       (h c _ (Cert.KernelIdeal.GenP.mem_uc Cert.KernelIdeal.main_arg13 (by decide))).trans (Cert.KernelIdeal.GenP.W7_main_arg13 m ρ c)⟩)
      (Cert.KernelIdeal.RunValue.run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v94_eq, Cert.Net.ref_out, e0, e1, e2, e3, e4, e5, e6, e7, e8, e9, e10, e11, e12, e13]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves, Cert.Proof.algebraic⟩

end
